-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x1024x256 .f32) (main_arg1 : FVec F S256x768 .f32) (main_arg2 : FVec F S768 .f32) (main_arg3 : FVec F S256x256 .f32) (main_arg4 : FVec F S256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S64x1024x256 : Shape := ⟨3, ![64, 1024, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S1x768 : Shape := ⟨2, ![1, 768]⟩
abbrev S1x256 : Shape := ⟨2, ![1, 256]⟩
abbrev S64x1x1024x1024 : Shape := ⟨4, ![64, 1, 1024, 1024]⟩
abbrev S1x1024x256 : Shape := ⟨3, ![1, 1024, 256]⟩
abbrev S1x256x256 : Shape := ⟨3, ![1, 256, 256]⟩
abbrev S1x1x256x1024 : Shape := ⟨4, ![1, 1, 256, 1024]⟩
abbrev S1024x768 : Shape := ⟨2, ![1024, 768]⟩
abbrev S1024x256 : Shape := ⟨2, ![1024, 256]⟩
abbrev S256x1024 : Shape := ⟨2, ![256, 1024]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S64x1024x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256x768, .bf16⟩
  | .hbm, ⟨6, _⟩ => ⟨S256x256, .bf16⟩
  | .hbm, ⟨7, _⟩ => ⟨S1x768, .f32⟩
  | .hbm, ⟨8, _⟩ => ⟨S1x256, .f32⟩
  | .hbm, ⟨9, _⟩ => ⟨S64x1024x256, .f32⟩
  | .hbm, ⟨10, _⟩ => ⟨S64x1x1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S256x768, .bf16⟩
  | .local _ .vmem, ⟨3, _⟩ => ⟨S1x768, .f32⟩
  | .local _ .vmem, ⟨4, _⟩ => ⟨S256x256, .bf16⟩
  | .local _ .vmem, ⟨5, _⟩ => ⟨S1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1024x768, .bf16⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S768_S1x768 : S768.ShapeCasts S1x768
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S1024x768_S1024x256_0_0 : ∀ a, (![0, 0] : Fin 2 → Nat) a + S1024x256.size a ≤ S1024x768.size a
  h_S1024x256 : 0 < S1024x256.numel
  shapeCasts_S1024x256_S1024x256 : S1024x256.ShapeCasts S1024x256
  packedbf16_S1024x768_S1024x256_0_0 : (Rect.unit (s := S1024x768) ![0, 0] S1024x256.size inb_S1024x768_S1024x256_0_0).PackedRows (EltTy.packing .bf16)
  inb_S1024x768_S1024x256_0_256 : ∀ a, (![0, 256] : Fin 2 → Nat) a + S1024x256.size a ≤ S1024x768.size a
  packedbf16_S1024x768_S1024x256_0_256 : (Rect.unit (s := S1024x768) ![0, 256] S1024x256.size inb_S1024x768_S1024x256_0_256).PackedRows (EltTy.packing .bf16)
  inb_S1024x768_S1024x256_0_512 : ∀ a, (![0, 512] : Fin 2 → Nat) a + S1024x256.size a ≤ S1024x768.size a
  packedbf16_S1024x768_S1024x256_0_512 : (Rect.unit (s := S1024x768) ![0, 512] S1024x256.size inb_S1024x768_S1024x256_0_512).PackedRows (EltTy.packing .bf16)
  h_S256x256 : 0 < S256x256.numel
  transposes_S1024x256_p1_0_S256x1024 : S1024x256.Transposes [1, 0] S256x1024
  iota_S256x1024_d0_w32 : S256x1024.Iotas .tc 32 [0]
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  shapeCasts_S256x1024_S1x1x256x1024 : S256x1024.ShapeCasts S1x1x256x1024
  inb_S256x256_S256x256_0_0 : ∀ a, (![0, 0] : Fin 2 → Nat) a + S256x256.size a ≤ S256x256.size a
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S1024x256_S256x768_S1024x768_1_0_0_1_n_n_wf : DotDims.WF S1024x256 S256x768 S1024x768 [1] [0] [0] [1] [] []
  dot_S256x256_S256x1024_S256x1024_1_0_0_1_n_n_wf : DotDims.WF S256x256 S256x1024 S256x1024 [1] [0] [0] [1] [] []
  dot_S256x1024_S1024x256_S256x256_1_0_0_1_n_n_wf : DotDims.WF S256x1024 S1024x256 S256x256 [1] [0] [0] [1] [] []
  dot_S256x256_S256x256_S256x256_1_0_0_1_n_n_wf : DotDims.WF S256x256 S256x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x256.size a ≤ S1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S64x1024x256.size a
  hwx0_5 : ∀ i : grid0.Coords, EltTy.bits .f32 = 32 ∨ (Rect.block (s := S64x1024x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x1024.size a ≤ S64x1x1024x1024.size a
  hwx0_6 : ∀ i : grid0.Coords, EltTy.bits .f32 = 32 ∨ (Rect.block (s := S64x1x1024x1024) S1x1x256x1024.size (cc0_transform_6 i) (hinb0_6 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S64x1024x768 : Shape := ⟨3, ![64, 1024, 768]⟩
abbrev S1x1x768 : Shape := ⟨3, ![1, 1, 768]⟩
abbrev S64x1024x1x256 : Shape := ⟨4, ![64, 1024, 1, 256]⟩
abbrev S64x1x1024x256 : Shape := ⟨4, ![64, 1, 1024, 256]⟩
abbrev S64x1x1024x1024 : Shape := ⟨4, ![64, 1, 1024, 1024]⟩
abbrev S_ : Shape := ⟨0, ![]⟩
abbrev S1x1x1024x1024 : Shape := ⟨4, ![1, 1, 1024, 1024]⟩
abbrev S1024x1024 : Shape := ⟨2, ![1024, 1024]⟩
abbrev S64x1x1024 : Shape := ⟨3, ![64, 1, 1024]⟩
abbrev S64x1x1024x1 : Shape := ⟨4, ![64, 1, 1024, 1]⟩
abbrev S1x1x256 : Shape := ⟨3, ![1, 1, 256]⟩

abbrev nBuf : Space → Nat
  | .hbm => 60
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S64x1024x768, .f32⟩
  | .hbm, ⟨6, _⟩ => ⟨S1x1x768, .f32⟩
  | .hbm, ⟨7, _⟩ => ⟨S64x1024x768, .f32⟩
  | .hbm, ⟨8, _⟩ => ⟨S64x1024x768, .f32⟩
  | .hbm, ⟨9, _⟩ => ⟨S64x1024x256, .f32⟩
  | .hbm, ⟨10, _⟩ => ⟨S64x1024x256, .f32⟩
  | .hbm, ⟨11, _⟩ => ⟨S64x1024x256, .f32⟩
  | .hbm, ⟨12, _⟩ => ⟨S64x1024x1x256, .f32⟩
  | .hbm, ⟨13, _⟩ => ⟨S64x1x1024x256, .f32⟩
  | .hbm, ⟨14, _⟩ => ⟨S64x1024x1x256, .f32⟩
  | .hbm, ⟨15, _⟩ => ⟨S64x1x1024x256, .f32⟩
  | .hbm, ⟨16, _⟩ => ⟨S64x1024x1x256, .f32⟩
  | .hbm, ⟨17, _⟩ => ⟨S64x1x1024x256, .f32⟩
  | .hbm, ⟨18, _⟩ => ⟨S64x1x1024x1024, .f32⟩
  | .hbm, ⟨19, _⟩ => ⟨S_, .f32⟩
  | .hbm, ⟨20, _⟩ => ⟨S_, .f32⟩
  | .hbm, ⟨21, _⟩ => ⟨S64x1x1024x1024, .f32⟩
  | .hbm, ⟨22, _⟩ => ⟨S64x1x1024x1024, .f32⟩
  | .hbm, ⟨23, _⟩ => ⟨S_, .i1⟩
  | .hbm, ⟨24, _⟩ => ⟨S1x1x1024x1024, .i1⟩
  | .hbm, ⟨25, _⟩ => ⟨S1024x1024, .i32⟩
  | .hbm, ⟨26, _⟩ => ⟨S_, .i32⟩
  | .hbm, ⟨27, _⟩ => ⟨S1024x1024, .i32⟩
  | .hbm, ⟨28, _⟩ => ⟨S1024x1024, .i32⟩
  | .hbm, ⟨29, _⟩ => ⟨S1024x1024, .i32⟩
  | .hbm, ⟨30, _⟩ => ⟨S1024x1024, .i1⟩
  | .hbm, ⟨31, _⟩ => ⟨S1x1x1024x1024, .i1⟩
  | .hbm, ⟨32, _⟩ => ⟨S_, .i1⟩
  | .hbm, ⟨33, _⟩ => ⟨S1x1x1024x1024, .i1⟩
  | .hbm, ⟨34, _⟩ => ⟨S1x1x1024x1024, .i1⟩
  | .hbm, ⟨35, _⟩ => ⟨S_, .f32⟩
  | .hbm, ⟨36, _⟩ => ⟨S64x1x1024x1024, .i1⟩
  | .hbm, ⟨37, _⟩ => ⟨S64x1x1024x1024, .f32⟩
  | .hbm, ⟨38, _⟩ => ⟨S64x1x1024x1024, .f32⟩
  | .hbm, ⟨39, _⟩ => ⟨S_, .f32⟩
  | .hbm, ⟨40, _⟩ => ⟨S64x1x1024, .f32⟩
  | .hbm, ⟨41, _⟩ => ⟨S_, .f32⟩
  | .hbm, ⟨42, _⟩ => ⟨S64x1x1024, .f32⟩
  | .hbm, ⟨43, _⟩ => ⟨S64x1x1024, .f32⟩
  | .hbm, ⟨44, _⟩ => ⟨S64x1x1024x1, .f32⟩
  | .hbm, ⟨45, _⟩ => ⟨S64x1x1024x1024, .f32⟩
  | .hbm, ⟨46, _⟩ => ⟨S64x1x1024x1024, .f32⟩
  | .hbm, ⟨47, _⟩ => ⟨S64x1x1024x1024, .f32⟩
  | .hbm, ⟨48, _⟩ => ⟨S_, .f32⟩
  | .hbm, ⟨49, _⟩ => ⟨S64x1x1024, .f32⟩
  | .hbm, ⟨50, _⟩ => ⟨S64x1x1024x1, .f32⟩
  | .hbm, ⟨51, _⟩ => ⟨S64x1x1024x1024, .f32⟩
  | .hbm, ⟨52, _⟩ => ⟨S64x1x1024x1024, .f32⟩
  | .hbm, ⟨53, _⟩ => ⟨S64x1x1024x256, .f32⟩
  | .hbm, ⟨54, _⟩ => ⟨S64x1024x1x256, .f32⟩
  | .hbm, ⟨55, _⟩ => ⟨S64x1024x256, .f32⟩
  | .hbm, ⟨56, _⟩ => ⟨S64x1024x256, .f32⟩
  | .hbm, ⟨57, _⟩ => ⟨S1x1x256, .f32⟩
  | .hbm, ⟨58, _⟩ => ⟨S64x1024x256, .f32⟩
  | .hbm, ⟨59, _⟩ => ⟨S64x1024x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_0 : Ref sig .tc := ⟨.hbm, 32, rfl⟩
abbrev main_call0_v6 : Ref sig .tc := ⟨.hbm, 33, rfl⟩
abbrev main_v18 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x1024x768_0_1_2 : S1x1x768.BroadcastsInDim S64x1024x768 (![0, 1, 2] : Fin 3 → Fin S64x1024x768.rank)
  slices_S64x1024x768_S64x1024x256_0_0_0 : S64x1024x768.Slices ![0, 0, 0] S64x1024x256
  slices_S64x1024x768_S64x1024x256_0_0_256 : S64x1024x768.Slices ![0, 0, 256] S64x1024x256
  slices_S64x1024x768_S64x1024x256_0_0_512 : S64x1024x768.Slices ![0, 0, 512] S64x1024x256
  shapeCasts_S64x1024x256_S64x1024x1x256 : S64x1024x256.ShapeCasts S64x1024x1x256
  transposes_S64x1024x1x256_S64x1x1024x256_0_2_1_3 : S64x1024x1x256.Transposes [0, 2, 1, 3] S64x1x1024x256
  bcast_S_S64x1x1024x1024 : S_.BroadcastsInDim S64x1x1024x1024 (![] : Fin 0 → Fin S64x1x1024x1024.rank)
  bcast_S_S1x1x1024x1024 : S_.BroadcastsInDim S1x1x1024x1024 (![] : Fin 0 → Fin S1x1x1024x1024.rank)
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S64x1x1024x1024_0_1_2_3 : S1x1x1024x1024.BroadcastsInDim S64x1x1024x1024 (![0, 1, 2, 3] : Fin 4 → Fin S64x1x1024x1024.rank)
  reducesTo_S64x1x1024x1024_S64x1x1024_d3 : S64x1x1024x1024.ReducesTo [3] S64x1x1024
  h_S_ : 0 < S_.numel
  bcast_S_S64x1x1024 : S_.BroadcastsInDim S64x1x1024 (![] : Fin 0 → Fin S64x1x1024.rank)
  bcast_S64x1x1024_S64x1x1024x1_0_1_2 : S64x1x1024.BroadcastsInDim S64x1x1024x1 (![0, 1, 2] : Fin 3 → Fin S64x1x1024x1.rank)
  bcast_S64x1x1024x1_S64x1x1024x1024_0_1_2_3 : S64x1x1024x1.BroadcastsInDim S64x1x1024x1024 (![0, 1, 2, 3] : Fin 4 → Fin S64x1x1024x1024.rank)
  transposes_S64x1x1024x256_S64x1024x1x256_0_2_1_3 : S64x1x1024x256.Transposes [0, 2, 1, 3] S64x1024x1x256
  shapeCasts_S64x1024x1x256_S64x1024x256 : S64x1024x1x256.ShapeCasts S64x1024x256
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  dot_S64x1024x256_S256x768_S64x1024x768_2_0_01_1_n_n_wf : DotDims.WF S64x1024x256 S256x768 S64x1024x768 [2] [0] [0, 1] [1] [] []
  dot_S64x1x1024x256_S64x1x1024x256_S64x1x1024x1024_3_3_2_2_01_01_wf : DotDims.WF S64x1x1024x256 S64x1x1024x256 S64x1x1024x1024 [3] [3] [2] [2] [0, 1] [0, 1]
  dot_S64x1x1024x1024_S64x1x1024x256_S64x1x1024x256_3_2_2_3_01_01_wf : DotDims.WF S64x1x1024x1024 S64x1x1024x256 S64x1x1024x256 [3] [2] [2] [3] [0, 1] [0, 1]
  dot_S64x1024x256_S256x256_S64x1024x256_2_0_01_1_n_n_wf : DotDims.WF S64x1024x256 S256x256 S64x1024x256 [2] [0] [0, 1] [1] [] []

variable [Facts₀]

def dot_S64x1024x256_S256x768_S64x1024x768_2_0_01_1_n_n : DotDims S64x1024x256 S256x768 S64x1024x768 where
  lhsContracting := [2]
  rhsContracting := [0]
  lhsNonContracting := [0, 1]
  rhsNonContracting := [1]
  lhsBatch := []
  rhsBatch := []
  wf := dot_S64x1024x256_S256x768_S64x1024x768_2_0_01_1_n_n_wf
def dot_S64x1x1024x256_S64x1x1024x256_S64x1x1024x1024_3_3_2_2_01_01 : DotDims S64x1x1024x256 S64x1x1024x256 S64x1x1024x1024 where
  lhsContracting := [3]
  rhsContracting := [3]
  lhsNonContracting := [2]
  rhsNonContracting := [2]
  lhsBatch := [0, 1]
  rhsBatch := [0, 1]
  wf := dot_S64x1x1024x256_S64x1x1024x256_S64x1x1024x1024_3_3_2_2_01_01_wf
def dot_S64x1x1024x1024_S64x1x1024x256_S64x1x1024x256_3_2_2_3_01_01 : DotDims S64x1x1024x1024 S64x1x1024x256 S64x1x1024x256 where
  lhsContracting := [3]
  rhsContracting := [2]
  lhsNonContracting := [2]
  rhsNonContracting := [3]
  lhsBatch := [0, 1]
  rhsBatch := [0, 1]
  wf := dot_S64x1x1024x1024_S64x1x1024x256_S64x1x1024x256_3_2_2_3_01_01_wf
def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf

class Facts : Prop extends Facts₀ where

variable [Facts]
-- ==== Proof.KPieces.lean ====
/-
  What one grid point of the attention kernel leaves behind, as closed terms over the body's arithmetic.

  The grid is 64 sequences × 4 query tiles of 256 rows.  The first tile of a sequence computes the fused projection of
  all 1024 tokens and stores it in a buffer that persists across the sequence's four tiles, as three column bands:
  columns 0–255 the query scaled by 1/16, 256–511 the key, 512–767 the value (`stash`).  Every tile — the first one
  after storing, the other three from what the first one stored — then reads 256 query rows of its own tile, all 1024
  key rows and all 1024 value rows out of that buffer, and from these alone writes its block of attention weights
  (`tileAttn`) and, with the output weights and bias, its block of the result (`tileOut`).
-/
import proofs.«137604_j76132590289000_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The three column bands the first tile of a sequence stores, last store first. -/
def bands (x0 : Vec F S1x1024x256 .f32) (x1 : Vec F S256x768 .bf16) (x2 : Vec F S1x768 .f32) :
    List (View.Piece (Elt F) S1024x768 .bf16) :=
  [⟨Rect.unit ![0, 512] S1024x256.size inb_S1024x768_S1024x256_0_512, k0_pay5 x0 x1 x2⟩,
   ⟨Rect.unit ![0, 256] S1024x256.size inb_S1024x768_S1024x256_0_256, k0_pay4 x0 x1 x2⟩,
   ⟨Rect.unit ![0, 0] S1024x256.size inb_S1024x768_S1024x256_0_0, k0_pay3 x0 x1 x2⟩]

/-- The three bands tile the [1024, 768] buffer. -/
theorem bands_cover (x0 : Vec F S1x1024x256 .f32) (x1 : Vec F S256x768 .bf16) (x2 : Vec F S1x768 .f32) (y : S1024x768.Idx) :
    ∃ pc ∈ bands x0 x1 x2, y ∈ pc.1.set :=
  View.cover_of_tiledL (bands x0 x1 x2) S1024x256.size (by sl_kernel_rfl) y

/-- What the persistent buffer holds once the first tile of a sequence has stored its bands. -/
def stash (x0 : Vec F S1x1024x256 .f32) (x1 : Vec F S256x768 .bf16) (x2 : Vec F S1x768 .f32) : Vec F S1024x768 .bf16 :=
  View.canon (bands x0 x1 x2)

/-- The 256 query rows of tile `i 1`, columns 0–255. -/
abbrev rQ (i : grid0.Coords) : Rect S1024x768 := Rect.unit (k0_off1 i) S256x256.size (k0_off1_inb i)
/-- All key rows, columns 256–511. -/
abbrev rK : Rect S1024x768 := Rect.unit ![0, 256] S1024x256.size inb_S1024x768_S1024x256_0_256
/-- All value rows, columns 512–767. -/
abbrev rV : Rect S1024x768 := Rect.unit ![0, 512] S1024x256.size inb_S1024x768_S1024x256_0_512

/-- A tile's block of attention weights, from the persistent buffer's contents. -/
def tileAttn (i : grid0.Coords) (Sc : Vec F S1024x768 .bf16) : Vec F S1x1x256x1024 .f32 :=
  k0_pay7 i (View.ld Sc (rQ i)) (View.ld Sc rK)

/-- A tile's block of the result, from the persistent buffer's contents, the output weights and the output bias. -/
def tileOut (i : grid0.Coords) (Sc : Vec F S1024x768 .bf16) (x3 : Vec F S256x256 .bf16) (x4 : Vec F S1x256 .f32) :
    Vec F S1x256x256 .f32 :=
  k0_pay1 (k0_pay8 i (View.ld Sc (rQ i)) (View.ld Sc rK) (View.ld Sc rV)) (k0_pay9 x3) x4

/-- The first tile of a sequence leaves the persistent buffer at `stash` of its three input blocks. -/
theorem stash_first (c : Dev nD) (i : grid0.Coords) (arg2 : Memref sig .tc .vmem S1x1024x256 .f32) (harg2 : arg2.IsWhole) (arg3 : Memref sig .tc .vmem S256x768 .bf16) (harg3 : arg3.IsWhole) (arg4 : Memref sig .tc .vmem S1x768 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x1x256x1024 .f32) (harg8 : arg8.IsWhole) (arg9 : Memref sig .tc .vmem S1024x768 .bf16) (harg9 : arg9.IsWhole) (hc0 : cond0_0 i) (x0 : Vec F S1x1024x256 .f32) (x1 : Vec F S256x768 .bf16) (x2 : Vec F S1x768 .f32) (x3 : Vec F S256x256 .bf16) (x4 : Vec F S1x256 .f32) :
    sout0_A_0 c i arg2 harg2 arg3 harg3 arg4 harg4 arg5 harg5 arg6 harg6 arg7 harg7 arg8 harg8 arg9 harg9 hc0 x0 x1 x2 x3 x4 = stash x0 x1 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg2.read_unread, harg3.read_unread, harg4.read_unread,
    View.ld_unit_zero (S := S1x1024x256) hz3, View.ld_unit_zero (S := S256x768) hz2, View.ld_unit_zero (S := S1x768) hz2]
  rfl

/-- The first tile's attention block is `tileAttn` of what it has just stored. -/
theorem attn_first (c : Dev nD) (i : grid0.Coords) (arg2 : Memref sig .tc .vmem S1x1024x256 .f32) (harg2 : arg2.IsWhole) (arg3 : Memref sig .tc .vmem S256x768 .bf16) (harg3 : arg3.IsWhole) (arg4 : Memref sig .tc .vmem S1x768 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x1x256x1024 .f32) (harg8 : arg8.IsWhole) (arg9 : Memref sig .tc .vmem S1024x768 .bf16) (harg9 : arg9.IsWhole) (hc0 : cond0_0 i) (x0 : Vec F S1x1024x256 .f32) (x1 : Vec F S256x768 .bf16) (x2 : Vec F S1x768 .f32) (x3 : Vec F S256x256 .bf16) (x4 : Vec F S1x256 .f32) :
    out0_A_6 c i arg2 harg2 arg3 harg3 arg4 harg4 arg5 harg5 arg6 harg6 arg7 harg7 arg8 harg8 arg9 harg9 hc0 x0 x1 x2 x3 x4 = tileAttn i (stash x0 x1 x2) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz4]
  simp only [View.readAt_eq_ld, harg2.read_unread, harg3.read_unread, harg4.read_unread,
    View.ld_unit_zero (S := S1x1024x256) hz3, View.ld_unit_zero (S := S256x768) hz2, View.ld_unit_zero (S := S1x768) hz2]
  have hr : View.read (Elt F) arg9.view (arg9.view.writes (Elt F) arg9.view.junk (bands x0 x1 x2)) = stash x0 x1 x2 :=
    View.read_writes_eq_canon _ _ _ (bands_cover x0 x1 x2)
  have hK : arg9.view.readCov (bands x0 x1 x2) rK.toLoadRect = View.ld (stash x0 x1 x2) rK :=
    View.readCov_eq_canon_ld _ _ _ (bands_cover x0 x1 x2)
  unfold tileAttn
  rw [← hK, ← hr]
  rfl

/-- The first tile's result block is `tileOut` of what it has just stored. -/
theorem out_first (c : Dev nD) (i : grid0.Coords) (arg2 : Memref sig .tc .vmem S1x1024x256 .f32) (harg2 : arg2.IsWhole) (arg3 : Memref sig .tc .vmem S256x768 .bf16) (harg3 : arg3.IsWhole) (arg4 : Memref sig .tc .vmem S1x768 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x1x256x1024 .f32) (harg8 : arg8.IsWhole) (arg9 : Memref sig .tc .vmem S1024x768 .bf16) (harg9 : arg9.IsWhole) (hc0 : cond0_0 i) (x0 : Vec F S1x1024x256 .f32) (x1 : Vec F S256x768 .bf16) (x2 : Vec F S1x768 .f32) (x3 : Vec F S256x256 .bf16) (x4 : Vec F S1x256 .f32) :
    out0_A_5 c i arg2 harg2 arg3 harg3 arg4 harg4 arg5 harg5 arg6 harg6 arg7 harg7 arg8 harg8 arg9 harg9 hc0 x0 x1 x2 x3 x4 = tileOut i (stash x0 x1 x2) x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x1024x256) hz3, View.ld_unit_zero (S := S256x768) hz2, View.ld_unit_zero (S := S1x768) hz2,
    View.ld_unit_zero (S := S256x256) hz2, View.ld_unit_zero (S := S1x256) hz2]
  have hr : View.read (Elt F) arg9.view (arg9.view.writes (Elt F) arg9.view.junk (bands x0 x1 x2)) = stash x0 x1 x2 :=
    View.read_writes_eq_canon _ _ _ (bands_cover x0 x1 x2)
  have hK : arg9.view.readCov (bands x0 x1 x2) rK.toLoadRect = View.ld (stash x0 x1 x2) rK :=
    View.readCov_eq_canon_ld _ _ _ (bands_cover x0 x1 x2)
  have hV : arg9.view.readCov (bands x0 x1 x2) rV.toLoadRect = View.ld (stash x0 x1 x2) rV :=
    View.readCov_eq_canon_ld _ _ _ (bands_cover x0 x1 x2)
  unfold tileOut
  rw [← hK, ← hV, ← hr]
  rfl

/-- A later tile's attention block is `tileAttn` of what the tile before left in the persistent buffer. -/
theorem attn_later (c : Dev nD) (i : grid0.Coords) (arg2 : Memref sig .tc .vmem S1x1024x256 .f32) (harg2 : arg2.IsWhole) (arg3 : Memref sig .tc .vmem S256x768 .bf16) (harg3 : arg3.IsWhole) (arg4 : Memref sig .tc .vmem S1x768 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x1x256x1024 .f32) (harg8 : arg8.IsWhole) (arg9 : Memref sig .tc .vmem S1024x768 .bf16) (harg9 : arg9.IsWhole) (hc0 : ¬cond0_0 i) (x0 : Vec F S1x1024x256 .f32) (x1 : Vec F S256x768 .bf16) (x2 : Vec F S1x768 .f32) (x3 : Vec F S256x256 .bf16) (x4 : Vec F S1x256 .f32) (xs0 : Vec F S1024x768 .bf16) :
    out0_B_6 c i arg2 harg2 arg3 harg3 arg4 harg4 arg5 harg5 arg6 harg6 arg7 harg7 arg8 harg8 arg9 harg9 hc0 x0 x1 x2 x3 x4 xs0 = tileAttn i xs0 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xs0)]
  unfold kernelRun0_B
  dsimp only
  sl_unfold_words
  rw [View.canon_unit_zero hz4]
  simp only [View.readAt_eq_ld, harg9.read_unread]
  rfl

/-- A later tile's result block is `tileOut` of what the tile before left in the persistent buffer. -/
theorem out_later (c : Dev nD) (i : grid0.Coords) (arg2 : Memref sig .tc .vmem S1x1024x256 .f32) (harg2 : arg2.IsWhole) (arg3 : Memref sig .tc .vmem S256x768 .bf16) (harg3 : arg3.IsWhole) (arg4 : Memref sig .tc .vmem S1x768 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x1x256x1024 .f32) (harg8 : arg8.IsWhole) (arg9 : Memref sig .tc .vmem S1024x768 .bf16) (harg9 : arg9.IsWhole) (hc0 : ¬cond0_0 i) (x0 : Vec F S1x1024x256 .f32) (x1 : Vec F S256x768 .bf16) (x2 : Vec F S1x768 .f32) (x3 : Vec F S256x256 .bf16) (x4 : Vec F S1x256 .f32) (xs0 : Vec F S1024x768 .bf16) :
    out0_B_5 c i arg2 harg2 arg3 harg3 arg4 harg4 arg5 harg5 arg6 harg6 arg7 harg7 arg8 harg8 arg9 harg9 hc0 x0 x1 x2 x3 x4 xs0 = tileOut i xs0 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0)]
  unfold kernelRun0_B
  dsimp only
  sl_unfold_words
  rw [View.canon_unit_zero hz3]
  simp only [View.readAt_eq_ld, harg9.read_unread, harg5.read_unread, harg6.read_unread,
    View.ld_unit_zero (S := S256x256) hz2, View.ld_unit_zero (S := S1x256) hz2]
  rfl

end Cert.KernelIdeal.Tile

end
-- ==== Proof.KMatmul.lean ====
/-
  The kernel's four matrix products at the exact values.  Each is a plain product of matrices [a, k] × [k, b] into a zero
  accumulator, so entry (p, q) is Σ_j lhs[p, j] · rhs[j, q]; and the fused projection of one sequence's 1024 tokens,
  entry (s, f), is Σ_e x[s, e] · W[e, f] + b[f].
-/
import proofs.«137604_j76132590289000_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

/-- Tokens [1024, 256] against the fused weights [256, 768]. -/
theorem mm_proj {φ₁ φ₂ : FTy} (lhs : FVec Ideal S1024x256 φ₁) (rhs : FVec Ideal S256x768 φ₂) (p : Fin 1024) (q : Fin 768) :
    matmul dot_S1024x256_S256x768_S1024x768_1_0_0_1_n_n none lhs rhs (constant (F := Ideal) S1024x768 .f32 0x00000000#32) (ix2 p q)
      = ∑ j : Fin 256, lhs (ix2 p j) * rhs (ix2 j q) := by
  refine (Ideal.matmul_constant_zero_apply dot_S1024x256_S256x768_S1024x768_1_0_0_1_n_n none lhs rhs (ix2 p q)).trans ?_
  rw [← Equiv.sum_comp (ValueIdx.contrEquiv1 dot_S1024x256_S256x768_S1024x768_1_0_0_1_n_n 256 rfl rfl).symm]
  refine Finset.sum_congr rfl fun j _ => ?_
  have hk := ValueIdx.contrEquiv1_symm_val dot_S1024x256_S256x768_S1024x768_1_0_0_1_n_n 256 rfl rfl j
  have l0 : ∀ k : dot_S1024x256_S256x768_S1024x768_1_0_0_1_n_n.contr.Idx, (dot_S1024x256_S256x768_S1024x768_1_0_0_1_n_n.lhsIdx (ix2 p q) k 0).val = p.val := fun k => by
    unfold DotDims.lhsIdx
    rw [dif_neg (show ¬(0 : Fin S1024x256.rank) ∈ dot_S1024x256_S256x768_S1024x768_1_0_0_1_n_n.lhsBatch by decide),
      dif_pos (show (0 : Fin S1024x256.rank) ∈ dot_S1024x256_S256x768_S1024x768_1_0_0_1_n_n.lhsNonContracting by decide)]
    rfl
  have r1 : ∀ k : dot_S1024x256_S256x768_S1024x768_1_0_0_1_n_n.contr.Idx, (dot_S1024x256_S256x768_S1024x768_1_0_0_1_n_n.rhsIdx (ix2 p q) k 1).val = q.val := fun k => by
    unfold DotDims.rhsIdx
    rw [dif_neg (show ¬(1 : Fin S256x768.rank) ∈ dot_S1024x256_S256x768_S1024x768_1_0_0_1_n_n.rhsBatch by decide),
      dif_pos (show (1 : Fin S256x768.rank) ∈ dot_S1024x256_S256x768_S1024x768_1_0_0_1_n_n.rhsNonContracting by decide)]
    rfl
  have el : dot_S1024x256_S256x768_S1024x768_1_0_0_1_n_n.lhsIdx (ix2 p q) ((ValueIdx.contrEquiv1 dot_S1024x256_S256x768_S1024x768_1_0_0_1_n_n 256 rfl rfl).symm j) = ix2 p j :=
    funext fun a => Fin.ext (by
      match a with
      | ⟨0, _⟩ => exact l0 _
      | ⟨1, _⟩ => exact (dot_S1024x256_S256x768_S1024x768_1_0_0_1_n_n.lhsIdx_val_of_single rfl _ _).trans hk)
  have er : dot_S1024x256_S256x768_S1024x768_1_0_0_1_n_n.rhsIdx (ix2 p q) ((ValueIdx.contrEquiv1 dot_S1024x256_S256x768_S1024x768_1_0_0_1_n_n 256 rfl rfl).symm j) = ix2 j q :=
    funext fun a => Fin.ext (by
      match a with
      | ⟨0, _⟩ => exact (dot_S1024x256_S256x768_S1024x768_1_0_0_1_n_n.rhsIdx_val_of_single rfl _ _).trans hk
      | ⟨1, _⟩ => exact r1 _)
  rw [el, er]

/-- A tile's queries [256, 256] against the transposed keys [256, 1024]. -/
theorem mm_score {φ₁ φ₂ : FTy} (lhs : FVec Ideal S256x256 φ₁) (rhs : FVec Ideal S256x1024 φ₂) (p : Fin 256) (q : Fin 1024) :
    matmul dot_S256x256_S256x1024_S256x1024_1_0_0_1_n_n none lhs rhs (constant (F := Ideal) S256x1024 .f32 0x00000000#32) (ix2 p q)
      = ∑ j : Fin 256, lhs (ix2 p j) * rhs (ix2 j q) := by
  refine (Ideal.matmul_constant_zero_apply dot_S256x256_S256x1024_S256x1024_1_0_0_1_n_n none lhs rhs (ix2 p q)).trans ?_
  rw [← Equiv.sum_comp (ValueIdx.contrEquiv1 dot_S256x256_S256x1024_S256x1024_1_0_0_1_n_n 256 rfl rfl).symm]
  refine Finset.sum_congr rfl fun j _ => ?_
  have hk := ValueIdx.contrEquiv1_symm_val dot_S256x256_S256x1024_S256x1024_1_0_0_1_n_n 256 rfl rfl j
  have l0 : ∀ k : dot_S256x256_S256x1024_S256x1024_1_0_0_1_n_n.contr.Idx, (dot_S256x256_S256x1024_S256x1024_1_0_0_1_n_n.lhsIdx (ix2 p q) k 0).val = p.val := fun k => by
    unfold DotDims.lhsIdx
    rw [dif_neg (show ¬(0 : Fin S256x256.rank) ∈ dot_S256x256_S256x1024_S256x1024_1_0_0_1_n_n.lhsBatch by decide),
      dif_pos (show (0 : Fin S256x256.rank) ∈ dot_S256x256_S256x1024_S256x1024_1_0_0_1_n_n.lhsNonContracting by decide)]
    rfl
  have r1 : ∀ k : dot_S256x256_S256x1024_S256x1024_1_0_0_1_n_n.contr.Idx, (dot_S256x256_S256x1024_S256x1024_1_0_0_1_n_n.rhsIdx (ix2 p q) k 1).val = q.val := fun k => by
    unfold DotDims.rhsIdx
    rw [dif_neg (show ¬(1 : Fin S256x1024.rank) ∈ dot_S256x256_S256x1024_S256x1024_1_0_0_1_n_n.rhsBatch by decide),
      dif_pos (show (1 : Fin S256x1024.rank) ∈ dot_S256x256_S256x1024_S256x1024_1_0_0_1_n_n.rhsNonContracting by decide)]
    rfl
  have el : dot_S256x256_S256x1024_S256x1024_1_0_0_1_n_n.lhsIdx (ix2 p q) ((ValueIdx.contrEquiv1 dot_S256x256_S256x1024_S256x1024_1_0_0_1_n_n 256 rfl rfl).symm j) = ix2 p j :=
    funext fun a => Fin.ext (by
      match a with
      | ⟨0, _⟩ => exact l0 _
      | ⟨1, _⟩ => exact (dot_S256x256_S256x1024_S256x1024_1_0_0_1_n_n.lhsIdx_val_of_single rfl _ _).trans hk)
  have er : dot_S256x256_S256x1024_S256x1024_1_0_0_1_n_n.rhsIdx (ix2 p q) ((ValueIdx.contrEquiv1 dot_S256x256_S256x1024_S256x1024_1_0_0_1_n_n 256 rfl rfl).symm j) = ix2 j q :=
    funext fun a => Fin.ext (by
      match a with
      | ⟨0, _⟩ => exact (dot_S256x256_S256x1024_S256x1024_1_0_0_1_n_n.rhsIdx_val_of_single rfl _ _).trans hk
      | ⟨1, _⟩ => exact r1 _)
  rw [el, er]

/-- A tile's attention weights [256, 1024] against the values [1024, 256]. -/
theorem mm_ctx {φ₁ φ₂ : FTy} (lhs : FVec Ideal S256x1024 φ₁) (rhs : FVec Ideal S1024x256 φ₂) (p : Fin 256) (q : Fin 256) :
    matmul dot_S256x1024_S1024x256_S256x256_1_0_0_1_n_n none lhs rhs (constant (F := Ideal) S256x256 .f32 0x00000000#32) (ix2 p q)
      = ∑ j : Fin 1024, lhs (ix2 p j) * rhs (ix2 j q) := by
  refine (Ideal.matmul_constant_zero_apply dot_S256x1024_S1024x256_S256x256_1_0_0_1_n_n none lhs rhs (ix2 p q)).trans ?_
  rw [← Equiv.sum_comp (ValueIdx.contrEquiv1 dot_S256x1024_S1024x256_S256x256_1_0_0_1_n_n 1024 rfl rfl).symm]
  refine Finset.sum_congr rfl fun j _ => ?_
  have hk := ValueIdx.contrEquiv1_symm_val dot_S256x1024_S1024x256_S256x256_1_0_0_1_n_n 1024 rfl rfl j
  have l0 : ∀ k : dot_S256x1024_S1024x256_S256x256_1_0_0_1_n_n.contr.Idx, (dot_S256x1024_S1024x256_S256x256_1_0_0_1_n_n.lhsIdx (ix2 p q) k 0).val = p.val := fun k => by
    unfold DotDims.lhsIdx
    rw [dif_neg (show ¬(0 : Fin S256x1024.rank) ∈ dot_S256x1024_S1024x256_S256x256_1_0_0_1_n_n.lhsBatch by decide),
      dif_pos (show (0 : Fin S256x1024.rank) ∈ dot_S256x1024_S1024x256_S256x256_1_0_0_1_n_n.lhsNonContracting by decide)]
    rfl
  have r1 : ∀ k : dot_S256x1024_S1024x256_S256x256_1_0_0_1_n_n.contr.Idx, (dot_S256x1024_S1024x256_S256x256_1_0_0_1_n_n.rhsIdx (ix2 p q) k 1).val = q.val := fun k => by
    unfold DotDims.rhsIdx
    rw [dif_neg (show ¬(1 : Fin S1024x256.rank) ∈ dot_S256x1024_S1024x256_S256x256_1_0_0_1_n_n.rhsBatch by decide),
      dif_pos (show (1 : Fin S1024x256.rank) ∈ dot_S256x1024_S1024x256_S256x256_1_0_0_1_n_n.rhsNonContracting by decide)]
    rfl
  have el : dot_S256x1024_S1024x256_S256x256_1_0_0_1_n_n.lhsIdx (ix2 p q) ((ValueIdx.contrEquiv1 dot_S256x1024_S1024x256_S256x256_1_0_0_1_n_n 1024 rfl rfl).symm j) = ix2 p j :=
    funext fun a => Fin.ext (by
      match a with
      | ⟨0, _⟩ => exact l0 _
      | ⟨1, _⟩ => exact (dot_S256x1024_S1024x256_S256x256_1_0_0_1_n_n.lhsIdx_val_of_single rfl _ _).trans hk)
  have er : dot_S256x1024_S1024x256_S256x256_1_0_0_1_n_n.rhsIdx (ix2 p q) ((ValueIdx.contrEquiv1 dot_S256x1024_S1024x256_S256x256_1_0_0_1_n_n 1024 rfl rfl).symm j) = ix2 j q :=
    funext fun a => Fin.ext (by
      match a with
      | ⟨0, _⟩ => exact (dot_S256x1024_S1024x256_S256x256_1_0_0_1_n_n.rhsIdx_val_of_single rfl _ _).trans hk
      | ⟨1, _⟩ => exact r1 _)
  rw [el, er]

/-- A tile's weighted values [256, 256] against the output weights [256, 256]. -/
theorem mm_out {φ₁ φ₂ : FTy} (lhs : FVec Ideal S256x256 φ₁) (rhs : FVec Ideal S256x256 φ₂) (p : Fin 256) (q : Fin 256) :
    matmul dot_S256x256_S256x256_S256x256_1_0_0_1_n_n none lhs rhs (constant (F := Ideal) S256x256 .f32 0x00000000#32) (ix2 p q)
      = ∑ j : Fin 256, lhs (ix2 p j) * rhs (ix2 j q) := by
  refine (Ideal.matmul_constant_zero_apply dot_S256x256_S256x256_S256x256_1_0_0_1_n_n none lhs rhs (ix2 p q)).trans ?_
  rw [← Equiv.sum_comp (ValueIdx.contrEquiv1 dot_S256x256_S256x256_S256x256_1_0_0_1_n_n 256 rfl rfl).symm]
  refine Finset.sum_congr rfl fun j _ => ?_
  have hk := ValueIdx.contrEquiv1_symm_val dot_S256x256_S256x256_S256x256_1_0_0_1_n_n 256 rfl rfl j
  have l0 : ∀ k : dot_S256x256_S256x256_S256x256_1_0_0_1_n_n.contr.Idx, (dot_S256x256_S256x256_S256x256_1_0_0_1_n_n.lhsIdx (ix2 p q) k 0).val = p.val := fun k => by
    unfold DotDims.lhsIdx
    rw [dif_neg (show ¬(0 : Fin S256x256.rank) ∈ dot_S256x256_S256x256_S256x256_1_0_0_1_n_n.lhsBatch by decide),
      dif_pos (show (0 : Fin S256x256.rank) ∈ dot_S256x256_S256x256_S256x256_1_0_0_1_n_n.lhsNonContracting by decide)]
    rfl
  have r1 : ∀ k : dot_S256x256_S256x256_S256x256_1_0_0_1_n_n.contr.Idx, (dot_S256x256_S256x256_S256x256_1_0_0_1_n_n.rhsIdx (ix2 p q) k 1).val = q.val := fun k => by
    unfold DotDims.rhsIdx
    rw [dif_neg (show ¬(1 : Fin S256x256.rank) ∈ dot_S256x256_S256x256_S256x256_1_0_0_1_n_n.rhsBatch by decide),
      dif_pos (show (1 : Fin S256x256.rank) ∈ dot_S256x256_S256x256_S256x256_1_0_0_1_n_n.rhsNonContracting by decide)]
    rfl
  have el : dot_S256x256_S256x256_S256x256_1_0_0_1_n_n.lhsIdx (ix2 p q) ((ValueIdx.contrEquiv1 dot_S256x256_S256x256_S256x256_1_0_0_1_n_n 256 rfl rfl).symm j) = ix2 p j :=
    funext fun a => Fin.ext (by
      match a with
      | ⟨0, _⟩ => exact l0 _
      | ⟨1, _⟩ => exact (dot_S256x256_S256x256_S256x256_1_0_0_1_n_n.lhsIdx_val_of_single rfl _ _).trans hk)
  have er : dot_S256x256_S256x256_S256x256_1_0_0_1_n_n.rhsIdx (ix2 p q) ((ValueIdx.contrEquiv1 dot_S256x256_S256x256_S256x256_1_0_0_1_n_n 256 rfl rfl).symm j) = ix2 j q :=
    funext fun a => Fin.ext (by
      match a with
      | ⟨0, _⟩ => exact (dot_S256x256_S256x256_S256x256_1_0_0_1_n_n.rhsIdx_val_of_single rfl _ _).trans hk
      | ⟨1, _⟩ => exact r1 _)
  rw [el, er]

/-- The fused projection of a sequence's block, entry (s, f). -/
theorem proj_apply (x0 : FVec Ideal S1x1024x256 .f32) (x1 : FVec Ideal S256x768 .bf16) (x2 : FVec Ideal S1x768 .f32)
    (s : Fin 1024) (f : Fin 768) :
    k0_pay2 (F := Ideal) x0 x1 x2 (ix2 s f)
      = (∑ e : Fin 256, x0 (ix3 (0 : Fin 1) s e) * x1 (ix2 e f)) + x2 (ix2 (0 : Fin 1) f) := by
  unfold k0_pay2
  refine (addf_apply _ _ _).trans ?_
  refine congrArg₂ (· + ·) ?_ ?_
  · refine (mm_proj _ _ s f).trans ?_
    refine Finset.sum_congr rfl fun e _ => congrArg₂ (· * ·) ?_ ?_
    · exact shapeCast_1ab_ab_apply x0 _ s e
    · exact congrFun (shapeCast_self x1 _) _
  · exact (broadcastTo_1b_ab_apply _ _ s f).trans (congrFun (shapeCast_self x2 _) _)

end Cert.KernelIdeal.Tile

end
-- ==== Proof.Spec.lean ====
/-
  Single-head causal self-attention over 64 sequences of 1024 tokens of width 256, as one function of the five
  argument arrays, entry by entry on the extended reals.

  * `proj`   : the fused projection, token (n, s), column f of 768:  Σ_e x[n,s,e] · W[e,f] + b[f].  Columns 0–255 are the
               query, 256–511 the key, 512–767 the value.
  * score     : query row r against key row k.  Two arrangements occur.  One scales the query first,
               Σ_d (q[r,d] · 1/16) · k[k,d]; the other divides the finished product by √256, (Σ_d q[r,d] · k[k,d]) / √256.
               They agree on every extended real (`scoreDivided_eq_scoreScaled`): √256 = 16, dividing by 16 is
               multiplying by 1/16, and a factor that is a non-negative REAL moves across a finite sum even when terms
               are infinite.
  * `masked` : key positions after the query position read −10000 instead of the score.
  * `attn`   : the row softmax, exp(s − M) / Σ exp(s − M) with M the row's maximum (folded from −∞).
  * `out`    : (attn · value) · W_out + b_out.
-/
import Idealize.ShloMosaic.PureOps.Ideal
import Idealize.ShloMosaic.Lib.ValueIdx

noncomputable section

namespace Cert.CausalAttn

open Idealize.ShloMosaic Idealize.ShloMosaic.ValueIdx
open scoped BigOperators

/-! ## The float words that are evaluated -/

/-- The word of `256.0` denotes the real 256. -/
theorem ofBits_256 : Ideal.ofBits .f32 0x43800000#32 = ((256 : ℝ) : EReal) := by
  simp [Ideal.ofBits, Ideal.ieee, -EReal.coe_mul]; norm_num

/-- The word of `0.0625` denotes the real 1/16. -/
theorem ofBits_sixteenth : Ideal.ofBits .f32 0x3D800000#32 = ((1 / 16 : ℝ) : EReal) := by
  simp [Ideal.ofBits, Ideal.ieee, -EReal.coe_mul]; norm_num

/-- The word of `+0.0` denotes 0. -/
theorem ofBits_zero : Ideal.ofBits .f32 0x00000000#32 = 0 := by
  simp [Ideal.ofBits, Ideal.ieee]

/-- √256 = 16 on the extended reals. -/
theorem sqrt_256 : Ideal.sqrt (Ideal.ofBits .f32 0x43800000#32) = ((16 : ℝ) : EReal) := by
  rw [ofBits_256, Ideal.sqrt_coe, if_neg (by norm_num)]
  congr 1
  rw [show (256 : ℝ) = 16 ^ 2 by norm_num]
  exact Real.sqrt_sq (by norm_num)

/-! ## The projection and its three column ranges -/

/-- Query column `d` of the fused projection. -/
def colQ (d : Fin 256) : Fin 768 := ⟨d.val, by have := d.isLt; omega⟩
/-- Key column `d` of the fused projection. -/
def colK (d : Fin 256) : Fin 768 := ⟨d.val + 256, by have := d.isLt; omega⟩
/-- Value column `d` of the fused projection. -/
def colV (d : Fin 256) : Fin 768 := ⟨d.val + 512, by have := d.isLt; omega⟩

/-- The fused projection at token (n, s), column f. -/
def proj (x : (⟨3, ![64, 1024, 256]⟩ : Shape).Idx → EReal) (W : (⟨2, ![256, 768]⟩ : Shape).Idx → EReal)
    (b : (⟨1, ![768]⟩ : Shape).Idx → EReal) (n : Fin 64) (s : Fin 1024) (f : Fin 768) : EReal :=
  (∑ e : Fin 256, x (ix3 n s e) * W (ix2 e f)) + b (ix1 f)

/-! ## The score, in both arrangements -/

/-- The query scaled by 1/16 before the product with the key. -/
def scoreScaled (P : Fin 64 → Fin 1024 → Fin 768 → EReal) (n : Fin 64) (r k : Fin 1024) : EReal :=
  ∑ d : Fin 256, (P n r (colQ d) * Ideal.ofBits .f32 0x3D800000#32) * P n k (colK d)

/-- The product of query and key divided by √256. -/
def scoreDivided (P : Fin 64 → Fin 1024 → Fin 768 → EReal) (n : Fin 64) (r k : Fin 1024) : EReal :=
  Ideal.div (∑ d : Fin 256, P n r (colQ d) * P n k (colK d)) (Ideal.sqrt (Ideal.ofBits .f32 0x43800000#32))

/-- A non-negative real factor moves across a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The two arrangements of the score are one function. -/
theorem scoreDivided_eq_scoreScaled (P : Fin 64 → Fin 1024 → Fin 768 → EReal) :
    scoreDivided P = scoreScaled P := by
  funext n r k
  unfold scoreDivided scoreScaled
  rw [sqrt_256, Ideal.div_coe (by norm_num : (16 : ℝ) ≠ 0), ofBits_sixteenth,
    sum_mul_real _ _ _ (by norm_num)]
  exact Finset.sum_congr rfl fun d _ => mul_right_comm _ _ _

/-! ## Mask, softmax, outputs -/

/-- Key positions after the query position read −10000. -/
def masked (S : Fin 64 → Fin 1024 → Fin 1024 → EReal) (n : Fin 64) (r k : Fin 1024) : EReal :=
  if k.val ≤ r.val then S n r k else Ideal.ofBits .f32 0xC61C4000#32

/-- The maximum of row r, folded from −∞. -/
def rowMax (S : Fin 64 → Fin 1024 → Fin 1024 → EReal) (n : Fin 64) (r : Fin 1024) : EReal :=
  (Finset.univ : Finset (Fin 1024)).fold max (Ideal.ofBits .f32 0xFF800000#32) (fun k => S n r k)

/-- The row softmax. -/
def softmax (S : Fin 64 → Fin 1024 → Fin 1024 → EReal) (n : Fin 64) (r k : Fin 1024) : EReal :=
  Ideal.div (Ideal.exp (S n r k - rowMax S n r)) (∑ k' : Fin 1024, Ideal.exp (S n r k' - rowMax S n r))

/-- The attention weights of the five argument arrays' first three. -/
def attn (x : (⟨3, ![64, 1024, 256]⟩ : Shape).Idx → EReal) (W : (⟨2, ![256, 768]⟩ : Shape).Idx → EReal)
    (b : (⟨1, ![768]⟩ : Shape).Idx → EReal) : Fin 64 → Fin 1024 → Fin 1024 → EReal :=
  softmax (masked (scoreScaled (proj x W b)))

/-- The weighted values: row r of attention against value column e. -/
def ctx (A : Fin 64 → Fin 1024 → Fin 1024 → EReal) (P : Fin 64 → Fin 1024 → Fin 768 → EReal)
    (n : Fin 64) (r : Fin 1024) (e : Fin 256) : EReal :=
  ∑ k : Fin 1024, A n r k * P n k (colV e)

/-- The output projection. -/
def outProj (C : Fin 64 → Fin 1024 → Fin 256 → EReal) (Wo : (⟨2, ![256, 256]⟩ : Shape).Idx → EReal)
    (bo : (⟨1, ![256]⟩ : Shape).Idx → EReal) (n : Fin 64) (r : Fin 1024) (j : Fin 256) : EReal :=
  (∑ e : Fin 256, C n r e * Wo (ix2 e j)) + bo (ix1 j)

/-- The first result, [64, 1024, 256]. -/
def resultOut (x : (⟨3, ![64, 1024, 256]⟩ : Shape).Idx → EReal) (W : (⟨2, ![256, 768]⟩ : Shape).Idx → EReal)
    (b : (⟨1, ![768]⟩ : Shape).Idx → EReal) (Wo : (⟨2, ![256, 256]⟩ : Shape).Idx → EReal)
    (bo : (⟨1, ![256]⟩ : Shape).Idx → EReal) : (⟨3, ![64, 1024, 256]⟩ : Shape).Idx → EReal :=
  fun i => outProj (ctx (attn x W b) (proj x W b)) Wo bo (i 0) (i 1) (i 2)

/-- The second result, the attention weights as [64, 1, 1024, 1024]. -/
def resultAttn (x : (⟨3, ![64, 1024, 256]⟩ : Shape).Idx → EReal) (W : (⟨2, ![256, 768]⟩ : Shape).Idx → EReal)
    (b : (⟨1, ![768]⟩ : Shape).Idx → EReal) : (⟨4, ![64, 1, 1024, 1024]⟩ : Shape).Idx → EReal :=
  fun i => attn x W b (i 0) (i 2) (i 3)

end Cert.CausalAttn

end
-- ==== Proof.KStash.lean ====
/-
  The buffer that persists across a sequence's four query tiles, read at an entry.  The three bands the first tile stores
  are blocks of ONE function of the buffer's index (s, f): the fused projection at (s, f), multiplied by 1/16 on the query
  columns f < 256.  The three reads every tile makes of it are: the tile's own 256 query rows, columns 0–255; all key
  rows, columns 256–511; all value rows, columns 512–767.
-/
import proofs.«137604_j76132590289000_2_alg».proof.Proof.KPieces
import proofs.«137604_j76132590289000_2_alg».proof.Proof.KMatmul
import proofs.«137604_j76132590289000_2_alg».proof.Proof.Spec

noncomputable section

open Idealize.ShloMosaic Idealize.ShloMosaic.ValueIdx Idealize.ShloMosaic.TcCoe Idealize.SL.Sem
open scoped BigOperators

namespace Cert.KernelIdeal.Tile

open Cert.KernelIdeal Cert.KernelIdeal.Gen Cert.CausalAttn

/-- The projection with its query columns scaled by 1/16. -/
def scaledQ (P : S1024x768.Idx → EReal) : S1024x768.Idx → EReal :=
  fun y => if (y 1).val < 256 then P y * Ideal.ofBits .f32 0x3D800000#32 else P y

/-- The query band: columns 0–255. -/
abbrev rQall : Rect S1024x768 := Rect.unit ![0, 0] S1024x256.size inb_S1024x768_S1024x256_0_0

/-- The query band of a [1024, 768] array at a band index, and that index's column. -/
theorem bandQ (P : FVec Ideal S1024x768 .f32) (x : S1024x256.Idx) :
    extractStridedSlice S1024x256 ![0, 0] P slices_S1024x768_o0_0_S1024x256 x = P (rQall.emb x) ∧ (rQall.emb x 1).val = 0 + (x 1).val :=
  ⟨extractStridedSlice_apply (t := S1024x256) ![0, 0] P slices_S1024x768_o0_0_S1024x256 x (rQall.emb x) fun a => by
      match a with
      | ⟨0, _⟩ => show 0 + 1 * (x 0).val = 0 + (x 0).val; omega
      | ⟨1, _⟩ => show 0 + 1 * (x 1).val = 0 + (x 1).val; omega,
    by show 0 + 1 * (x 1).val = 0 + (x 1).val; omega⟩

/-- The key band of a [1024, 768] array at a band index, and that index's column. -/
theorem bandK (P : FVec Ideal S1024x768 .f32) (x : S1024x256.Idx) :
    extractStridedSlice S1024x256 ![0, 256] P slices_S1024x768_o0_256_S1024x256 x = P (rK.emb x) ∧ (rK.emb x 1).val = 256 + (x 1).val :=
  ⟨extractStridedSlice_apply (t := S1024x256) ![0, 256] P slices_S1024x768_o0_256_S1024x256 x (rK.emb x) fun a => by
      match a with
      | ⟨0, _⟩ => show 0 + 1 * (x 0).val = 0 + (x 0).val; omega
      | ⟨1, _⟩ => show 256 + 1 * (x 1).val = 256 + (x 1).val; omega,
    by show 256 + 1 * (x 1).val = 256 + (x 1).val; omega⟩

/-- The value band of a [1024, 768] array at a band index, and that index's column. -/
theorem bandV (P : FVec Ideal S1024x768 .f32) (x : S1024x256.Idx) :
    extractStridedSlice S1024x256 ![0, 512] P slices_S1024x768_o0_512_S1024x256 x = P (rV.emb x) ∧ (rV.emb x 1).val = 512 + (x 1).val :=
  ⟨extractStridedSlice_apply (t := S1024x256) ![0, 512] P slices_S1024x768_o0_512_S1024x256 x (rV.emb x) fun a => by
      match a with
      | ⟨0, _⟩ => show 0 + 1 * (x 0).val = 0 + (x 0).val; omega
      | ⟨1, _⟩ => show 512 + 1 * (x 1).val = 512 + (x 1).val; omega,
    by show 512 + 1 * (x 1).val = 512 + (x 1).val; omega⟩

/-- The value band as stored is the scaled-query projection on its columns (unscaled there). -/
theorem pay5_apply (x0 : FVec Ideal S1x1024x256 .f32) (x1 : FVec Ideal S256x768 .bf16) (x2 : FVec Ideal S1x768 .f32) (x : S1024x256.Idx) :
    k0_pay5 (F := Ideal) x0 x1 x2 x = scaledQ (k0_pay2 (F := Ideal) x0 x1 x2) (rV.emb x) := by
  obtain ⟨e, hc⟩ := bandV (k0_pay2 (F := Ideal) x0 x1 x2) x
  have hn : ¬(rV.emb x 1).val < 256 := by rw [hc]; omega
  refine Eq.trans ?_ (if_neg hn).symm
  unfold k0_pay5
  exact (congrFun (shapeCast_self _ _) x).trans e

/-- The key band as stored is the scaled-query projection on its columns (unscaled there). -/
theorem pay4_apply (x0 : FVec Ideal S1x1024x256 .f32) (x1 : FVec Ideal S256x768 .bf16) (x2 : FVec Ideal S1x768 .f32) (x : S1024x256.Idx) :
    k0_pay4 (F := Ideal) x0 x1 x2 x = scaledQ (k0_pay2 (F := Ideal) x0 x1 x2) (rK.emb x) := by
  obtain ⟨e, hc⟩ := bandK (k0_pay2 (F := Ideal) x0 x1 x2) x
  have hn : ¬(rK.emb x 1).val < 256 := by rw [hc]; omega
  refine Eq.trans ?_ (if_neg hn).symm
  unfold k0_pay4
  exact (congrFun (shapeCast_self _ _) x).trans e

/-- The query band as stored is the scaled-query projection on its columns (scaled there). -/
theorem pay3_apply (x0 : FVec Ideal S1x1024x256 .f32) (x1 : FVec Ideal S256x768 .bf16) (x2 : FVec Ideal S1x768 .f32) (x : S1024x256.Idx) :
    k0_pay3 (F := Ideal) x0 x1 x2 x = scaledQ (k0_pay2 (F := Ideal) x0 x1 x2) (rQall.emb x) := by
  obtain ⟨e, hc⟩ := bandQ (k0_pay2 (F := Ideal) x0 x1 x2) x
  have hx : (x 1).val < 256 := (x 1).isLt
  have hp : (rQall.emb x 1).val < 256 := by rw [hc]; omega
  refine Eq.trans ?_ (if_pos hp).symm
  unfold k0_pay3
  refine (congrFun (shapeCast_self _ _) x).trans ?_
  exact congrArg (· * Ideal.ofBits .f32 0x3D800000#32) e

/-- Each of the three stored bands is the scaled-query projection on its own columns. -/
theorem bands_agree (x0 : FVec Ideal S1x1024x256 .f32) (x1 : FVec Ideal S256x768 .bf16) (x2 : FVec Ideal S1x768 .f32) :
    ∀ p ∈ bands (F := Ideal) x0 x1 x2, ∀ x : p.1.shape.Idx, p.2 x = scaledQ (k0_pay2 (F := Ideal) x0 x1 x2) (p.1.emb x) := by
  intro p hp
  unfold bands at hp
  rcases List.mem_cons.mp hp with rfl | hp
  · exact pay5_apply x0 x1 x2
  rcases List.mem_cons.mp hp with rfl | hp
  · exact pay4_apply x0 x1 x2
  rcases List.mem_cons.mp hp with rfl | hp
  · exact pay3_apply x0 x1 x2
  exact absurd hp List.not_mem_nil

/-- What the first tile of a sequence stores is the scaled-query projection of its three input blocks. -/
theorem stash_eq (x0 : FVec Ideal S1x1024x256 .f32) (x1 : FVec Ideal S256x768 .bf16) (x2 : FVec Ideal S1x768 .f32) :
    stash (F := Ideal) x0 x1 x2 = scaledQ (k0_pay2 (F := Ideal) x0 x1 x2) :=
  funext fun y =>
    View.canon_apply_of_pieces (Val := Elt Ideal) (S := S1024x768) (e := .bf16) (scaledQ (k0_pay2 (F := Ideal) x0 x1 x2))
      (bands (F := Ideal) x0 x1 x2) (bands_agree x0 x1 x2) y (bands_cover (F := Ideal) x0 x1 x2 y)

/-- The first row of tile q as the body's load offset computes it. -/
theorem tileOff (q : Fin 4) : (Scalar.indexCast (Scalar.muli (BitVec.ofNat 32 q.val) 256#32)).toNat = 256 * q.val := by
  fin_cases q <;> rfl

/-- The query rows of tile `i 1`: row r, column d of the read is row 256·q + r, column d of the buffer. -/
theorem ldQ_apply (i : grid0.Coords) (Sc : FVec Ideal S1024x768 .bf16) (r d : Fin 256) (row : Fin 1024)
    (hrow : row.val = 256 * (i 1).val + r.val) :
    View.ld (Val := Elt Ideal) (e' := .bf16) Sc (rQ i) (ix2 r d) = Sc (ix2 row (colQ d)) :=
  congrArg Sc (funext fun a => Fin.ext (by
    match a with
    | ⟨0, _⟩ =>
      show (Scalar.indexCast (Scalar.muli (BitVec.ofNat 32 (i 1).val) 256#32)).toNat + 1 * r.val = row.val
      rw [tileOff (i 1), hrow, Nat.one_mul]
    | ⟨1, _⟩ =>
      show 0 + 1 * d.val = d.val
      omega))

/-- The key rows: row k, column d of the read is row k, column 256 + d of the buffer. -/
theorem ldK_apply (Sc : FVec Ideal S1024x768 .bf16) (k : Fin 1024) (d : Fin 256) :
    View.ld (Val := Elt Ideal) (e' := .bf16) Sc rK (ix2 k d) = Sc (ix2 k (colK d)) :=
  congrArg Sc (funext fun a => Fin.ext (by
    match a with
    | ⟨0, _⟩ => show 0 + 1 * k.val = k.val; omega
    | ⟨1, _⟩ => show 256 + 1 * d.val = d.val + 256; omega))

/-- The value rows: row k, column d of the read is row k, column 512 + d of the buffer. -/
theorem ldV_apply (Sc : FVec Ideal S1024x768 .bf16) (k : Fin 1024) (d : Fin 256) :
    View.ld (Val := Elt Ideal) (e' := .bf16) Sc rV (ix2 k d) = Sc (ix2 k (colV d)) :=
  congrArg Sc (funext fun a => Fin.ext (by
    match a with
    | ⟨0, _⟩ => show 0 + 1 * k.val = k.val; omega
    | ⟨1, _⟩ => show 512 + 1 * d.val = d.val + 512; omega))

end Cert.KernelIdeal.Tile

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibSoftmaxRow.lean ====
/-
  A row-wise softmax over a matrix [a, b] of extended reals, in the form a vector unit computes it, read at one entry.

  The row maximum is a maximum-reduction over axis 1 into a vector [a], re-laid as a column [a, 1] and spread back over
  [a, b]; it is subtracted, the exponential taken, the exponentials summed over axis 1 by an add-reduction treated the
  same way, and the quotient formed. Because max and + on the extended reals commute and associate, each reduction at
  row r is the fold (the sum) over the row's entries, whatever order it visits them in. So entry (r, k) of the result is
      exp(s(r,k) - M_r) / sum_k' exp(s(r,k') - M_r),      M_r the maximum of row r folded from the accumulator's value.
-/
import Idealize.ShloMosaic.Lib.ValueIdx
import Idealize.ShloMosaic.Lib.Pipeline.Value
import Idealize.ShloMosaic.PureOps.Ideal.Laws
import Idealize.ShloMosaic.PureOps.Reduce
import proofs.«137604_j76132590289000_2_alg».proof.Proof.LibColumn

noncomputable section

namespace Cert.LibSoftmaxRow

open Idealize.ShloMosaic Idealize.ShloMosaic.ValueIdx
open scoped BigOperators

set_option backward.isDefEq.respectTransparency.types false in
/-- Over row `r` of the reduced vector, inserting coordinate `k` on the reduced axis 1 gives the matrix index (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  rw [h.lift_val]
  match c with
  | ⟨0, _⟩ => rfl
  | ⟨1, _⟩ => rfl

/-- A maximum-reduction over axis 1, at row `r`: the fold of max from the accumulator's value over the row's entries. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => (Finset.univ : Finset (Fin b)).fold max (Ideal.ofBits .f32 acc) f)
    (funext fun k => congrArg src (lift_row h r k))

/-- An add-reduction over axis 1, at row `r`: the sum of the row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The row softmax, as computed with the reduced axis kept as a unit column, read at entry (r, k). -/
theorem softmaxRow_apply {a b : ℕ} (s : FVec Ideal ⟨2, ![a, b]⟩ .f32) (accM accA : BitVec 32)
    (h : (⟨2, ![a, b]⟩ : Shape).Reduces [1] ⟨1, ![a]⟩) (hφ hφ' : FKind.Formats .f32)
    (haccM : accM = FKind.maximumf.neutral .f32 hφ) (haccA : accA = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩ (multiReduction .maximumf [1] ⟨1, ![a]⟩ s accM h hφ haccM) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s accM h hφ haccM) hc) hb)))
          accA h hφ' haccA) hc) hb) (ix2 r k)
      = Ideal.div
          (Ideal.exp (s (ix2 r k) - (Finset.univ : Finset (Fin b)).fold max (Ideal.ofBits .f32 accM) (fun k' => s (ix2 r k'))))
          (∑ k' : Fin b, Ideal.exp (s (ix2 r k') - (Finset.univ : Finset (Fin b)).fold max (Ideal.ofBits .f32 accM) (fun k'' => s (ix2 r k'')))) := by
  have hM : ∀ k' : Fin b,
      broadcastTo ⟨2, ![a, b]⟩ (shapeCast ⟨2, ![a, 1]⟩ (multiReduction .maximumf [1] ⟨1, ![a]⟩ s accM h hφ haccM) hc) hb (ix2 r k')
        = (Finset.univ : Finset (Fin b)).fold max (Ideal.ofBits .f32 accM) (fun k'' => s (ix2 r k'')) := fun k' =>
    (Cert.LibColumn.broadcastTo_a1_ab_apply _ hb r k').trans
      ((Cert.LibColumn.shapeCast_a_a1_apply _ hc r 0).trans (rowMax_apply s accM h hφ haccM r))
  have hE : ∀ k' : Fin b,
      exp (subf s (broadcastTo ⟨2, ![a, b]⟩ (shapeCast ⟨2, ![a, 1]⟩ (multiReduction .maximumf [1] ⟨1, ![a]⟩ s accM h hφ haccM) hc) hb)) (ix2 r k')
        = Ideal.exp (s (ix2 r k') - (Finset.univ : Finset (Fin b)).fold max (Ideal.ofBits .f32 accM) (fun k'' => s (ix2 r k''))) := fun k' =>
    congrArg (fun m => Ideal.exp (s (ix2 r k') - m)) (hM k')
  refine (congrArg₂ Ideal.div (hE k) ?_ : _)
  refine (Cert.LibColumn.broadcastTo_a1_ab_apply _ hb r k).trans ((Cert.LibColumn.shapeCast_a_a1_apply _ hc r 0).trans ?_)
  refine (rowSum_apply _ accA h hφ' haccA r).trans ?_
  exact Finset.sum_congr rfl fun k' _ => hE k'

end Cert.LibSoftmaxRow

end
-- ==== Proof.KScore.lean ====
/-
  One query tile's attention weights.  Tile q (of four) holds query rows 256·q … 256·q + 255 of a sequence.  Its score
  against key row k is the product of the (already scaled) query row with the key row; a key position beyond the query's
  own position 256·q + r reads −10000 instead — the comparison is made on signed 32-bit words, but every number in
  it is below 2^31, so it is the comparison of the natural numbers.  The weights are the row softmax of that.
-/
import proofs.«137604_j76132590289000_2_alg».proof.Proof.KMatmul
import proofs.«137604_j76132590289000_2_alg».proof.Proof.LibSoftmaxRow
import Idealize.ShloMosaic.Lib.Affine

noncomputable section

open Idealize.ShloMosaic Idealize.ShloMosaic.ValueIdx
open scoped BigOperators

namespace Cert.KernelIdeal.Tile

open Cert.KernelIdeal Cert.KernelIdeal.Gen

/-- A natural number below 2^31, as a 32-bit word, has itself as its signed value. -/
theorem toInt_ofNat_lt (m : ℕ) (h : m < 2 ^ 31) : (BitVec.ofNat 32 m).toInt = (m : ℤ) := by
  have hm : (BitVec.ofNat 32 m).toNat = m := by
    rw [BitVec.toNat_ofNat]
    exact Nat.mod_eq_of_lt (by omega)
  rw [BitVec.toInt_eq_toNat_of_lt (by rw [hm]; omega), hm]

/-- The first query row of tile q, as the body computes it: 256 · q. -/
theorem tileRow0 (q : Fin 4) : Scalar.muli (BitVec.ofNat 32 q.val) 256#32 = BitVec.ofNat 32 (256 * q.val) := by
  fin_cases q <;> rfl

/-- The signed comparison "column ≤ 256·q + row" of the body's words is the comparison of the numbers. -/
theorem causal_bit (q : Fin 4) (r : Fin 256) (k : Fin 1024) :
    IntOp.cmpi .sle (BitVec.ofNat 32 k.val) (IntOp.addi (Scalar.muli (BitVec.ofNat 32 q.val) 256#32) (BitVec.ofNat 32 r.val))
      = if k.val ≤ 256 * q.val + r.val then 1#1 else 0#1 := by
  have hq := q.isLt; have hr := r.isLt; have hk := k.isLt
  have hs : IntOp.addi (Scalar.muli (BitVec.ofNat 32 q.val) 256#32) (BitVec.ofNat 32 r.val) = BitVec.ofNat 32 (256 * q.val + r.val) := by
    rw [tileRow0]; exact (BitVec.ofNat_add _ _).symm
  rw [hs]
  by_cases h : k.val ≤ 256 * q.val + r.val
  · rw [if_pos h]
    exact IntOp.cmpi_sle.mpr (by rw [toInt_ofNat_lt _ (by omega), toInt_ofNat_lt _ (by omega)]; exact_mod_cast h)
  · rw [if_neg h]
    exact eq_zero_of_ne_one fun h1 => h (by
      have h2 := IntOp.cmpi_sle.mp h1
      rw [toInt_ofNat_lt _ (by omega), toInt_ofNat_lt _ (by omega)] at h2
      exact_mod_cast h2)

/-- The tile's masked scores, [256, 1024]. -/
def tileScore (i : grid0.Coords) (v6 : FVec Ideal S256x256 .bf16) (v7 : FVec Ideal S1024x256 .bf16) : FVec Ideal S256x1024 .f32 :=
  select (cmpi .sle (iota .tc S256x1024 32 [1] iota_S256x1024_d1_w32)
      (addi (broadcast S256x1024 (Scalar.muli (BitVec.ofNat 32 (i 1).val) 256#32)) (iota .tc S256x1024 32 [0] iota_S256x1024_d0_w32)))
    (matmul dot_S256x256_S256x1024_S256x1024_1_0_0_1_n_n none v6
      (transpose S256x1024 [1, 0] v7 transposes_S1024x256_p1_0_S256x1024) (constant (F := Ideal) S256x1024 .f32 0x00000000#32))
    (broadcast S256x1024 (Scalar.ofBits (F := Ideal) .f32 0xC61C4000#32))

/-- The masked score at (r, k): the product of query row r and key row k up to the query's own position, −10000 beyond. -/
theorem tileScore_apply (i : grid0.Coords) (v6 : FVec Ideal S256x256 .bf16) (v7 : FVec Ideal S1024x256 .bf16)
    (r : Fin 256) (k : Fin 1024) :
    tileScore i v6 v7 (ix2 r k)
      = if k.val ≤ 256 * (i 1).val + r.val then ∑ d : Fin 256, v6 (ix2 r d) * v7 (ix2 k d) else Ideal.ofBits .f32 0xC61C4000#32 := by
  have hm : matmul dot_S256x256_S256x1024_S256x1024_1_0_0_1_n_n none v6
      (transpose S256x1024 [1, 0] v7 transposes_S1024x256_p1_0_S256x1024) (constant (F := Ideal) S256x1024 .f32 0x00000000#32) (ix2 r k)
      = ∑ d : Fin 256, v6 (ix2 r d) * v7 (ix2 k d) :=
    (mm_score v6 _ r k).trans (Finset.sum_congr rfl fun d _ =>
      congrArg (v6 (ix2 r d) * ·) (transpose_ix2_apply v7 transposes_S1024x256_p1_0_S256x1024 d k))
  have hb : cmpi .sle (iota .tc S256x1024 32 [1] iota_S256x1024_d1_w32)
      (addi (broadcast S256x1024 (Scalar.muli (BitVec.ofNat 32 (i 1).val) 256#32)) (iota .tc S256x1024 32 [0] iota_S256x1024_d0_w32)) (ix2 r k)
      = if k.val ≤ 256 * (i 1).val + r.val then 1#1 else 0#1 := by
    show IntOp.cmpi .sle (iota .tc S256x1024 32 [1] iota_S256x1024_d1_w32 (ix2 r k))
      (IntOp.addi (Scalar.muli (BitVec.ofNat 32 (i 1).val) 256#32) (iota .tc S256x1024 32 [0] iota_S256x1024_d0_w32 (ix2 r k))) = _
    rw [iota_single_apply, iota_single_apply]
    exact causal_bit (i 1) r k
  unfold tileScore
  refine (select_apply _ _ _ _).trans ?_
  rw [hb, hm]
  by_cases h : k.val ≤ 256 * (i 1).val + r.val
  · rw [if_pos h, if_pos h, select_one]
  · rw [if_neg h, if_neg h, select_zero]
    rfl

/-- The tile's attention weights at (r, k): the row softmax of the masked scores. -/
theorem attn_apply (i : grid0.Coords) (v6 : FVec Ideal S256x256 .bf16) (v7 : FVec Ideal S1024x256 .bf16)
    (r : Fin 256) (k : Fin 1024) :
    k0_pay6 (F := Ideal) i v6 v7 (ix2 r k)
      = Ideal.div
          (Ideal.exp (tileScore i v6 v7 (ix2 r k)
            - (Finset.univ : Finset (Fin 1024)).fold max (Ideal.ofBits .f32 0xFF800000#32) (fun k' => tileScore i v6 v7 (ix2 r k'))))
          (∑ k' : Fin 1024, Ideal.exp (tileScore i v6 v7 (ix2 r k')
            - (Finset.univ : Finset (Fin 1024)).fold max (Ideal.ofBits .f32 0xFF800000#32) (fun k'' => tileScore i v6 v7 (ix2 r k'')))) :=
  Cert.LibSoftmaxRow.softmaxRow_apply (tileScore i v6 v7) 0xFF800000#32 0x00000000#32 reduces_S256x1024_S256 (.inl rfl) (.inl rfl) rfl rfl
    shapeCasts_S256_S256x1 broadcasts_S256x1_S256x1024 r k

end Cert.KernelIdeal.Tile

end
-- ==== Proof.LibLayout11.lean ====
/-
  Two re-layings around a pair of LEADING unit axes, read at an index given by coordinates.

  An array [1, 1, a, b] and the matrix [a, b] hold the same entries in the same row-major order: entry (0, 0, r, k) of
  the one is entry (r, k) of the other, whichever way the re-laying goes.
-/
import Idealize.ShloMosaic.Lib.Pipeline.Value
import Idealize.ShloMosaic.Lib.ValueIdx

namespace Cert.LibLayout11

open Idealize.ShloMosaic Idealize.ShloMosaic.ValueIdx

variable {α : Type}

/-- An array `[1, 1, a, b]` re-laid as the matrix `[a, b]` reads, at `(r, k)`, the array at `(0, 0, r, k)`. -/
theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (k : Fin b) :
    shapeCast ⟨2, ![a, b]⟩ x h (ix2 r k) = x (ix4 (0 : Fin 1) (0 : Fin 1) r k) :=
  shapeCast_apply x h _ _ (by
    rw [Shape.rowMajor_val_four, Shape.rowMajor_val_two]
    show ((0 * 1 + 0) * a + r.val) * b + k.val = r.val * b + k.val
    simp only [Nat.zero_mul, Nat.zero_add, Nat.mul_one])

/-- A matrix `[a, b]` re-laid as `[1, 1, a, b]` reads, at `(u, v, r, k)`, the matrix at `(r, k)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (r : Fin a) (k : Fin b) :
    shapeCast ⟨4, ![1, 1, a, b]⟩ x h (ix4 u v r k) = x (ix2 r k) :=
  shapeCast_apply x h _ _ (by
    have hu : u.val = 0 := by omega
    have hv : v.val = 0 := by omega
    rw [Shape.rowMajor_val_four, Shape.rowMajor_val_two]
    show r.val * b + k.val = ((u.val * 1 + v.val) * a + r.val) * b + k.val
    simp only [hu, hv, Nat.zero_mul, Nat.zero_add, Nat.mul_one])

end Cert.LibLayout11
-- ==== Proof.KOut.lean ====
/-
  The rest of one query tile at the exact values: its attention block re-laid as [1, 1, 256, 1024]; the weighted values,
  entry (r, e) = Σ_k attn[r, k] · value[k, e]; and the output projection, entry (r, j) = Σ_e ctx[r, e] · W_out[e, j] + b_out[j],
  re-laid as [1, 256, 256].
-/
import proofs.«137604_j76132590289000_2_alg».proof.Proof.KScore
import proofs.«137604_j76132590289000_2_alg».proof.Proof.LibLayout11

noncomputable section

open Idealize.ShloMosaic Idealize.ShloMosaic.ValueIdx
open scoped BigOperators

namespace Cert.KernelIdeal.Tile

open Cert.KernelIdeal Cert.KernelIdeal.Gen

/-- The attention block as it is stored: entry (u, v, r, k) of [1, 1, 256, 1024] is entry (r, k) of the matrix. -/
theorem attnBlock_apply (i : grid0.Coords) (v6 : FVec Ideal S256x256 .bf16) (v7 : FVec Ideal S1024x256 .bf16)
    (u v : Fin 1) (r : Fin 256) (k : Fin 1024) :
    k0_pay7 (F := Ideal) i v6 v7 (ix4 u v r k) = k0_pay6 (F := Ideal) i v6 v7 (ix2 r k) :=
  Cert.LibLayout11.shapeCast_ab_11ab_apply (k0_pay6 (F := Ideal) i v6 v7) shapeCasts_S256x1024_S1x1x256x1024 u v r k

/-- The weighted values at (r, e). -/
theorem ctx_apply (i : grid0.Coords) (v6 : FVec Ideal S256x256 .bf16) (v7 v8 : FVec Ideal S1024x256 .bf16)
    (r : Fin 256) (e : Fin 256) :
    k0_pay8 (F := Ideal) i v6 v7 v8 (ix2 r e) = ∑ k : Fin 1024, k0_pay6 (F := Ideal) i v6 v7 (ix2 r k) * v8 (ix2 k e) :=
  mm_ctx (truncf .bf16 (k0_pay6 (F := Ideal) i v6 v7) bitsLt_bf16_f32) v8 r e

/-- The output weights pass through unchanged. -/
theorem wout_eq (v34 : FVec Ideal S256x256 .bf16) : k0_pay9 (F := Ideal) v34 = v34 :=
  shapeCast_self v34 _

/-- The result block as it is stored: entry (u, r, j) of [1, 256, 256]. -/
theorem outBlock_apply (v33 v35 : FVec Ideal S256x256 .bf16) (v37 : FVec Ideal S1x256 .f32) (u : Fin 1) (r j : Fin 256) :
    k0_pay1 (F := Ideal) v33 v35 v37 (ix3 u r j)
      = (∑ e : Fin 256, v33 (ix2 r e) * v35 (ix2 e j)) + v37 (ix2 (0 : Fin 1) j) := by
  unfold k0_pay1
  refine (shapeCast_ab_1ab_apply _ shapeCasts_S256x256_S1x256x256 u r j).trans ?_
  refine (addf_apply _ _ _).trans ?_
  refine congrArg₂ (· + ·) (mm_out v33 v35 r j) ?_
  exact (broadcastTo_1b_ab_apply _ _ r j).trans (congrFun (shapeCast_self v37 _) _)

end Cert.KernelIdeal.Tile

end
-- ==== Proof.KTile.lean ====
/-
  One query tile against the specification.  Suppose the persistent buffer holds, for sequence n, the fused projection
  with the query columns scaled by 1/16.  Then tile q's attention block is the specification's attention weights at rows
  256·q … 256·q + 255 of sequence n, and its result block the specification's output projection at those rows: the tile's
  score is the scaled-query arrangement of the score, its mask the causal mask at the row's true position, its softmax the
  row softmax, and the two remaining products are the specification's sums term by term.
-/
import proofs.«137604_j76132590289000_2_alg».proof.Proof.KStash
import proofs.«137604_j76132590289000_2_alg».proof.Proof.KOut

noncomputable section

open Idealize.ShloMosaic Idealize.ShloMosaic.ValueIdx Idealize.ShloMosaic.TcCoe Idealize.SL.Sem
open scoped BigOperators

namespace Cert.KernelIdeal.Tile

open Cert.KernelIdeal Cert.KernelIdeal.Gen Cert.CausalAttn

variable (x : (⟨3, ![64, 1024, 256]⟩ : Shape).Idx → EReal) (W : (⟨2, ![256, 768]⟩ : Shape).Idx → EReal)
  (b : (⟨1, ![768]⟩ : Shape).Idx → EReal)

/-- "The buffer holds sequence n's projection, query columns scaled". -/
def HoldsSeq (Sc : FVec Ideal S1024x768 .bf16) (n : Fin 64) : Prop :=
  ∀ (s : Fin 1024) (f : Fin 768), Sc (ix2 s f)
    = if f.val < 256 then proj x W b n s f * Ideal.ofBits .f32 0x3D800000#32 else proj x W b n s f

variable {x W b}

/-- The tile's masked score at (r, k) is the specification's at (256·q + r, k). -/
theorem tileScore_spec (i : grid0.Coords) (Sc : FVec Ideal S1024x768 .bf16) (n : Fin 64) (h : HoldsSeq x W b Sc n)
    (r : Fin 256) (row : Fin 1024) (hrow : row.val = 256 * (i 1).val + r.val) (k : Fin 1024) :
    tileScore i (View.ld (Val := Elt Ideal) (e' := .bf16) Sc (rQ i)) (View.ld (Val := Elt Ideal) (e' := .bf16) Sc rK) (ix2 r k) = masked (scoreScaled (proj x W b)) n row k := by
  rw [tileScore_apply]
  unfold masked scoreScaled
  rw [← hrow]
  refine congrArg (fun S => if k.val ≤ row.val then S else Ideal.ofBits .f32 0xC61C4000#32) ?_
  refine Finset.sum_congr rfl fun d _ => congrArg₂ (· * ·) ?_ ?_
  · rw [ldQ_apply i Sc r d row hrow, h row (colQ d), if_pos (show (colQ d).val < 256 from d.isLt)]
  · rw [ldK_apply Sc k d, h k (colK d), if_neg (show ¬(colK d).val < 256 by show ¬(d.val + 256 < 256); omega)]

/-- The tile's attention weight at (r, k) is the specification's at (256·q + r, k). -/
theorem tileWeights_spec (i : grid0.Coords) (Sc : FVec Ideal S1024x768 .bf16) (n : Fin 64) (h : HoldsSeq x W b Sc n)
    (r : Fin 256) (row : Fin 1024) (hrow : row.val = 256 * (i 1).val + r.val) (k : Fin 1024) :
    k0_pay6 (F := Ideal) i (View.ld (Val := Elt Ideal) (e' := .bf16) Sc (rQ i)) (View.ld (Val := Elt Ideal) (e' := .bf16) Sc rK) (ix2 r k) = attn x W b n row k := by
  rw [attn_apply]
  simp only [tileScore_spec i Sc n h r row hrow]
  rfl

/-- The tile's attention block is the specification's attention weights at its rows. -/
theorem tileAttn_spec (i : grid0.Coords) (Sc : FVec Ideal S1024x768 .bf16) (n : Fin 64) (h : HoldsSeq x W b Sc n)
    (u v : Fin 1) (r : Fin 256) (row : Fin 1024) (hrow : row.val = 256 * (i 1).val + r.val) (k : Fin 1024) :
    tileAttn (F := Ideal) i Sc (ix4 u v r k) = attn x W b n row k :=
  (attnBlock_apply i _ _ u v r k).trans (tileWeights_spec i Sc n h r row hrow k)

/-- The tile's result block is the specification's output projection at its rows. -/
theorem tileOut_spec (i : grid0.Coords) (Sc : FVec Ideal S1024x768 .bf16) (n : Fin 64) (h : HoldsSeq x W b Sc n)
    (x3 : FVec Ideal S256x256 .bf16) (x4 : FVec Ideal S1x256 .f32)
    (Wo : (⟨2, ![256, 256]⟩ : Shape).Idx → EReal) (bo : (⟨1, ![256]⟩ : Shape).Idx → EReal)
    (h3 : ∀ e j : Fin 256, x3 (ix2 e j) = Wo (ix2 e j)) (h4 : ∀ j : Fin 256, x4 (ix2 (0 : Fin 1) j) = bo (ix1 j))
    (u : Fin 1) (r : Fin 256) (row : Fin 1024) (hrow : row.val = 256 * (i 1).val + r.val) (j : Fin 256) :
    tileOut (F := Ideal) i Sc x3 x4 (ix3 u r j) = outProj (ctx (attn x W b) (proj x W b)) Wo bo n row j := by
  unfold tileOut
  rw [outBlock_apply, wout_eq, h4 j]
  unfold outProj ctx
  refine congrArg (· + bo (ix1 j)) ?_
  refine Finset.sum_congr rfl fun e _ => congrArg₂ (· * ·) ?_ (h3 e j)
  rw [ctx_apply]
  refine Finset.sum_congr rfl fun k _ => congrArg₂ (· * ·) (tileWeights_spec i Sc n h r row hrow k) ?_
  rw [ldV_apply Sc k e, h k (colV e), if_neg (show ¬(colV e).val < 256 by show ¬(e.val + 512 < 256); omega)]

end Cert.KernelIdeal.Tile

end
-- ==== Proof.KGeoIn.lean ====
/-
  How each input window's block sits in its array, at a symbolic grid point.

  The grid has 64 × 4 points; point t has coordinates (t / 4, t % 4): the sequence and the tile of 256 query rows.
  Window 0 moves with the sequence only: its block at point t is the whole [1024, 256] slab of sequence t / 4.
  Windows 1 to 4 do not move: each block is its whole array. Two of those arrays are the weights after a change of
  float format, the identity on extended reals; the other two are the biases re-laid from [n] to [1, n], the same
  entries in the same order.
-/
import proofs.«137604_j76132590289000_2_alg».proof.Proof.Gen.KernelIdeal.Value
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Geo

open Cert.KernelIdeal Cert.KernelIdeal.Gen Idealize.ShloMosaic Idealize.ShloMosaic.ValueIdx Idealize.ShloMosaic.TcCoe Idealize.SL.Sem

/-- A grid point's position is below 256. -/
theorem point_lt (t : Fin cfg0.N) : t.val < 256 := lt_of_lt_of_eq t.isLt (show cfg0.N = 256 from N_0)

/-- The sequence a grid point works on. -/
def b (t : Fin cfg0.N) : Fin 64 := ⟨t.val / 4, by have h := point_lt t; omega⟩

/-- The query row, among the sequence's 1024, of row r of a grid point's tile of 256. -/
def row (t : Fin cfg0.N) (r : Fin 256) : Fin 1024 := ⟨256 * (t.val % 4) + r.val, by have := r.isLt; omega⟩

variable (m : (ℓ : Loc nD τ sig) → Buf (Elt Ideal) ℓ) (c : Dev nD) (t : Fin cfg0.N)

/-- A grid point's second coordinate is its tile. -/
theorem coords_tile : ((grid0.coords t) 1).val = t.val % 4 :=
  (by decide +kernel : ∀ t : Fin grid0.N, ((grid0.coords t) 1).val = t.val % 4) t

/-- Window 0's block index at a point: (sequence, 0, 0). -/
theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, win0_0.index t (0 : Fin 3) = t.val / 4 ∧ win0_0.index t (1 : Fin 3) = 0 ∧ win0_0.index t (2 : Fin 3) = 0)

/-- Window 0's block at a point is the slab of the point's sequence. -/
theorem iblk0_apply (u : Fin 1) (s : Fin 1024) (e : Fin 256) :
    iblk m c 0 t (ix3 u s e) = m ((c : Thread nD τ).loc main_arg0) (ix3 (b t) s e) := by
  obtain ⟨i0, i1, i2⟩ := idx0 t
  unfold iblk
  rw [View.read_apply]
  show V m c main_arg0 _ = _
  rw [V_main_arg0]
  refine congrArg (m ((c : Thread nD τ).loc main_arg0)) (funext fun a => Fin.ext ?_)
  have hu : u.val = 0 := by omega
  match a with
  | ⟨0, _⟩ => show win0_0.index t (0 : Fin 3) * 1 + 1 * u.val = t.val / 4; omega
  | ⟨1, _⟩ => show win0_0.index t (1 : Fin 3) * 1024 + 1 * s.val = s.val; omega
  | ⟨2, _⟩ => show win0_0.index t (2 : Fin 3) * 256 + 1 * e.val = e.val; omega

/-- The block indices of windows 1 to 4 are zero at every point: each block is its whole array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 1's array as the region finds it: the projection weights; the change of float format is the identity. -/
theorem V_v0 : (V m c main_v0 : S256x768.Idx → EReal) = fun i => (m ((c : Thread nD τ).loc main_arg1) : S256x768.Idx → EReal) i := by
  dsimp only [V, hostOps0]
  after_results
  rfl

/-- Window 3's array as the region finds it: the output weights; the change of float format is the identity. -/
theorem V_v1 : (V m c main_v1 : S256x256.Idx → EReal) = fun i => (m ((c : Thread nD τ).loc main_arg3) : S256x256.Idx → EReal) i := by
  dsimp only [V, hostOps0]
  after_results
  rfl

/-- Window 2's array as the region finds it: the projection bias re-laid from [768] to [1, 768]. -/
theorem V_v2 : (V m c main_v2 : S1x768.Idx → EReal)
    = shapeCast S1x768 (m ((c : Thread nD τ).loc main_arg2) : S768.Idx → EReal) shapeCasts_S768_S1x768 := by
  dsimp only [V, hostOps0]
  after_results
  rfl

/-- Window 4's array as the region finds it: the output bias re-laid from [256] to [1, 256]. -/
theorem V_v3 : (V m c main_v3 : S1x256.Idx → EReal)
    = shapeCast S1x256 (m ((c : Thread nD τ).loc main_arg4) : S256.Idx → EReal) shapeCasts_S256_S1x256 := by
  dsimp only [V, hostOps0]
  after_results
  rfl

/-- Window 1's block at a point is the whole matrix of projection weights. -/
theorem iblk1_apply (e : Fin 256) (f : Fin 768) :
    iblk m c 1 t (ix2 e f) = m ((c : Thread nD τ).loc main_arg1) (ix2 e f) := by
  obtain ⟨i0, i1⟩ := idx1 t
  unfold iblk
  rw [View.read_apply]
  show (V m c main_v0 : S256x768.Idx → EReal) _ = _
  rw [V_v0]
  refine congrArg (m ((c : Thread nD τ).loc main_arg1)) (funext fun a => Fin.ext ?_)
  match a with
  | ⟨0, _⟩ => show win0_1.index t (0 : Fin 2) * 256 + 1 * e.val = e.val; omega
  | ⟨1, _⟩ => show win0_1.index t (1 : Fin 2) * 768 + 1 * f.val = f.val; omega

/-- Window 2's block at a point is the projection bias, as one row. -/
theorem iblk2_apply (u : Fin 1) (f : Fin 768) :
    iblk m c 2 t (ix2 u f) = m ((c : Thread nD τ).loc main_arg2) (ix1 f) := by
  obtain ⟨i0, i1⟩ := idx2 t
  unfold iblk
  rw [View.read_apply]
  show (V m c main_v2 : S1x768.Idx → EReal) _ = _
  rw [V_v2]
  refine shapeCast_apply _ _ _ (ix1 f) ?_
  have hu : u.val = 0 := by omega
  rw [Shape.rowMajor_val_one, Shape.rowMajor_val_two]
  show f.val = (win0_2.index t (0 : Fin 2) * 1 + 1 * u.val) * 768 + (win0_2.index t (1 : Fin 2) * 768 + 1 * f.val)
  omega

/-- Window 3's block at a point is the whole matrix of output weights. -/
theorem iblk3_apply (e j : Fin 256) :
    iblk m c 3 t (ix2 e j) = m ((c : Thread nD τ).loc main_arg3) (ix2 e j) := by
  obtain ⟨i0, i1⟩ := idx3 t
  unfold iblk
  rw [View.read_apply]
  show (V m c main_v1 : S256x256.Idx → EReal) _ = _
  rw [V_v1]
  refine congrArg (m ((c : Thread nD τ).loc main_arg3)) (funext fun a => Fin.ext ?_)
  match a with
  | ⟨0, _⟩ => show win0_3.index t (0 : Fin 2) * 256 + 1 * e.val = e.val; omega
  | ⟨1, _⟩ => show win0_3.index t (1 : Fin 2) * 256 + 1 * j.val = j.val; omega

/-- Window 4's block at a point is the output bias, as one row. -/
theorem iblk4_apply (u : Fin 1) (j : Fin 256) :
    iblk m c 4 t (ix2 u j) = m ((c : Thread nD τ).loc main_arg4) (ix1 j) := by
  obtain ⟨i0, i1⟩ := idx4 t
  unfold iblk
  rw [View.read_apply]
  show (V m c main_v3 : S1x256.Idx → EReal) _ = _
  rw [V_v3]
  refine shapeCast_apply _ _ _ (ix1 j) ?_
  have hu : u.val = 0 := by omega
  rw [Shape.rowMajor_val_one, Shape.rowMajor_val_two]
  show j.val = (win0_4.index t (0 : Fin 2) * 1 + 1 * u.val) * 256 + (win0_4.index t (1 : Fin 2) * 256 + 1 * j.val)
  omega

end Cert.KernelIdeal.Geo

end
-- ==== Proof.KSeq.lean ====
/-
  The run over the 256 grid points.  Point t works on sequence t / 4, tile t % 4.  After every point the persistent buffer
  holds the projection of the point's own sequence (query columns scaled): a first tile stores exactly that, a later tile
  stores nothing and the tile before it belongs to the same sequence — an induction on the point, never an enumeration.
  So at every point the body reads its own sequence's projection, and what it leaves in the two output buffers is the
  specification at the tile's rows.
-/
import proofs.«137604_j76132590289000_2_alg».proof.Proof.KTile
import proofs.«137604_j76132590289000_2_alg».proof.Proof.KGeoIn

noncomputable section

open Idealize.ShloMosaic Idealize.ShloMosaic.ValueIdx Idealize.ShloMosaic.TcCoe Idealize.SL.Sem
open scoped BigOperators

namespace Cert.KernelIdeal.Seq

open Cert.KernelIdeal Cert.KernelIdeal.Gen Cert.CausalAttn Cert.KernelIdeal.Tile Cert.KernelIdeal.Geo

variable (m : (ℓ : Loc nD τ sig) → Buf (Elt Ideal) ℓ) (c : Dev nD)

/-- The five argument arrays on core c. -/
abbrev aX : (⟨3, ![64, 1024, 256]⟩ : Shape).Idx → EReal := m ((c : Thread nD τ).loc main_arg0)
abbrev aW : (⟨2, ![256, 768]⟩ : Shape).Idx → EReal := m ((c : Thread nD τ).loc main_arg1)
abbrev aB : (⟨1, ![768]⟩ : Shape).Idx → EReal := m ((c : Thread nD τ).loc main_arg2)
abbrev aWo : (⟨2, ![256, 256]⟩ : Shape).Idx → EReal := m ((c : Thread nD τ).loc main_arg3)
abbrev aBo : (⟨1, ![256]⟩ : Shape).Idx → EReal := m ((c : Thread nD τ).loc main_arg4)

/-- What a first tile stores holds its sequence's projection. -/
theorem first_holds (t : Fin cfg0.N) :
    HoldsSeq (aX m c) (aW m c) (aB m c) (stash (F := Ideal) (iblk m c 0 t) (iblk m c 1 t) (iblk m c 2 t)) (b t) := by
  intro s f
  rw [stash_eq]
  show (if f.val < 256 then k0_pay2 (F := Ideal) (iblk m c 0 t) (iblk m c 1 t) (iblk m c 2 t) (ix2 s f) * Ideal.ofBits .f32 0x3D800000#32
      else k0_pay2 (F := Ideal) (iblk m c 0 t) (iblk m c 1 t) (iblk m c 2 t) (ix2 s f)) = _
  rw [proj_apply]
  unfold proj
  simp only [iblk0_apply m c t, iblk1_apply m c t, iblk2_apply m c t]

/-- After every point the persistent buffer holds the projection of the point's sequence. -/
theorem holds_after : ∀ (n : ℕ) (hn : n < cfg0.N),
    HoldsSeq (aX m c) (aW m c) (aB m c) ((outsAt0 m c n hn).2.2) (b ⟨n, hn⟩)
  | 0, hn => by
    rw [outsAt0_A m c ⟨0, hn⟩ rfl]
    dsimp only
    rw [stash_first]
    exact first_holds m c ⟨0, hn⟩
  | n + 1, hn => by
    by_cases h0 : (n + 1) % 4 = 0
    · rw [outsAt0_A m c ⟨n + 1, hn⟩ h0]
      dsimp only
      rw [stash_first]
      exact first_holds m c ⟨n + 1, hn⟩
    · rw [outsAt0_B m c ⟨n + 1, hn⟩ h0]
      dsimp only
      unfold sout0_B_0
      have ih := holds_after n (Nat.lt_of_succ_lt hn)
      have hb : b ⟨n + 1, hn⟩ = b ⟨n, Nat.lt_of_succ_lt hn⟩ := Fin.ext (by show (n + 1) / 4 = n / 4; omega)
      rw [hb]
      exact ih

/-- What the persistent buffer holds when a later tile reads it: the projection of that tile's sequence. -/
theorem holds_before (t : Fin cfg0.N) (h0 : ¬t.val % 4 = 0) :
    HoldsSeq (aX m c) (aW m c) (aB m c) ((outsAt0 m c (t.val - 1) (Nat.lt_of_le_of_lt (Nat.sub_le _ _) t.isLt)).2.2) (b t) := by
  have ih := holds_after m c (t.val - 1) (Nat.lt_of_le_of_lt (Nat.sub_le _ _) t.isLt)
  have hb : b ⟨t.val - 1, Nat.lt_of_le_of_lt (Nat.sub_le _ _) t.isLt⟩ = b t := Fin.ext (by show (t.val - 1) / 4 = t.val / 4; omega)
  rw [← hb]
  exact ih

/-- A tile's row r is row 256·(t % 4) + r of its sequence. -/
theorem row_val (t : Fin cfg0.N) (r : Fin 256) : (row t r).val = 256 * ((grid0.coords t) 1).val + r.val := by
  rw [coords_tile]; rfl

/-- What point t leaves in the result's staging buffer: the specification's output at the tile's rows. -/
theorem out_at (t : Fin cfg0.N) (u : Fin 1) (r j : Fin 256) :
    (outsAt0 m c t.val t.isLt).1 (ix3 u r j)
      = resultOut (aX m c) (aW m c) (aB m c) (aWo m c) (aBo m c) (ix3 (b t) (row t r) j) := by
  show _ = outProj (ctx (attn (aX m c) (aW m c) (aB m c)) (proj (aX m c) (aW m c) (aB m c))) (aWo m c) (aBo m c) (b t) (row t r) j
  by_cases h0 : t.val % 4 = 0
  · rw [outsAt0_A m c t h0]
    dsimp only
    rw [out_first]
    exact tileOut_spec (grid0.coords t) _ (b t) (first_holds m c t) (iblk m c 3 t) (iblk m c 4 t) (aWo m c) (aBo m c)
      (iblk3_apply m c t) (iblk4_apply m c t (0 : Fin 1)) u r (row t r) (row_val t r) j
  · rw [outsAt0_B m c t h0]
    dsimp only
    rw [out_later]
    exact tileOut_spec (grid0.coords t) _ (b t) (holds_before m c t h0) (iblk m c 3 t) (iblk m c 4 t) (aWo m c) (aBo m c)
      (iblk3_apply m c t) (iblk4_apply m c t (0 : Fin 1)) u r (row t r) (row_val t r) j

/-- What point t leaves in the attention weights' staging buffer: the specification's weights at the tile's rows. -/
theorem attn_at (t : Fin cfg0.N) (u v : Fin 1) (r : Fin 256) (k : Fin 1024) :
    (outsAt0 m c t.val t.isLt).2.1 (ix4 u v r k)
      = resultAttn (aX m c) (aW m c) (aB m c) (ix4 (b t) (0 : Fin 1) (row t r) k) := by
  show _ = attn (aX m c) (aW m c) (aB m c) (b t) (row t r) k
  by_cases h0 : t.val % 4 = 0
  · rw [outsAt0_A m c t h0]
    dsimp only
    rw [attn_first]
    exact tileAttn_spec (grid0.coords t) _ (b t) (first_holds m c t) u v r (row t r) (row_val t r) k
  · rw [outsAt0_B m c t h0]
    dsimp only
    rw [attn_later]
    exact tileAttn_spec (grid0.coords t) _ (b t) (holds_before m c t h0) u v r (row t r) (row_val t r) k

end Cert.KernelIdeal.Seq

end
-- ==== Proof.KGeoOut.lean ====
/-
  How each output window's blocks tile its array: from what every grid point writes back to the whole array.

  Window 5's block at point t is rows 256·(t % 4) … 256·(t % 4) + 255 of sequence t / 4 in the [64, 1024, 256]
  array; window 6's is the same rows of the same sequence in the [64, 1, 1024, 1024] array. A block's array
  coordinate on an axis is always  block index × block extent + the coordinate inside the block. Neither window
  is cut at the array's end, so what a point writes back is its whole staged block. Every point writes back, and
  the blocks cover the array: the point covering sequence n, row s is 4·n + s / 256. So if what each point leaves
  in its block is one function G of the array's index read through the block, the array ends holding G.
-/
import proofs.«137604_j76132590289000_2_alg».proof.Proof.KGeoIn

noncomputable section

namespace Cert.KernelIdeal.Geo

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-! ## Window 5: the [64, 1024, 256] result -/

/-- Window 5's block index at a point: (sequence, tile, 0). -/
theorem idx5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, win0_5.index t (0 : Fin 3) = t.val / 4 ∧ win0_5.index t (1 : Fin 3) = t.val % 4 ∧ win0_5.index t (2 : Fin 3) = 0)

/-- What point t writes back to window 5's array is G read through the point's block. -/
theorem flushed5_eq (G : (⟨3, ![64, 1024, 256]⟩ : Shape).Idx → EReal)
    (h : ∀ (t : Fin cfg0.N) (u : Fin 1) (r j : Fin 256), (outsAt0 m c t.val t.isLt).1 (ix3 u r j) = G (ix3 (b t) (row t r) j))
    (t : Fin cfg0.N) :
    (dats m 0 c).flushed 5 t = ((cfg0.win 5).blk t).view.read (Elt Ideal) G := by
  obtain ⟨i0, i1, i2⟩ := idx5 t
  rw [Value.flushed5]
  refine funext fun (y : S1x256x256.Idx) => ?_
  rw [View.read_apply]
  have e1 : (cfg0.win 5).xinj (grid0.coords t) y = ix3 (n0 := 1) (n1 := 256) (n2 := 256) (y 0) (y 1) (y 2) :=
    funext fun a => Fin.ext (by
      match a with
      | ⟨0, _⟩ => rfl
      | ⟨1, _⟩ => rfl
      | ⟨2, _⟩ => rfl)
  have e2 : ((cfg0.win 5).blk t).view.emb y = ix3 (b t) (row t (y 1)) (y 2) := funext fun a => Fin.ext (by
    have h0 : (y 0).val < 1 := (y 0).isLt
    match a with
    | ⟨0, _⟩ => show win0_5.index t (0 : Fin 3) * 1 + 1 * (y 0).val = t.val / 4; omega
    | ⟨1, _⟩ => show win0_5.index t (1 : Fin 3) * 256 + 1 * (y 1).val = 256 * (t.val % 4) + (y 1).val; omega
    | ⟨2, _⟩ => show win0_5.index t (2 : Fin 3) * 256 + 1 * (y 2).val = (y 2).val; omega)
  exact (congrArg (outsAt0 m c t.val t.isLt).1 e1).trans ((h t (y 0) (y 1) (y 2)).trans (congrArg G e2.symm))

/-- An index of the array is in point t's block iff each coordinate is in the block's range on its axis. -/
theorem mem_blk5 (t : Fin cfg0.N) (i : S64x1024x256.Idx) :
    i ∈ ((cfg0.win 5).blk t).view.set ↔ ∀ a : Fin 3, win0_5.index t a * S1x256x256.size a ≤ (i a).val ∧ (i a).val < win0_5.index t a * S1x256x256.size a + S1x256x256.size a := by
  show i ∈ ((View.whole main_v4_0).slice (win0_5.rect t)).set ↔ _
  rw [View.set_slice_whole, Rect.mem_set_unit]
  exact Iff.rfl

/-- Every index of the array is in the block of the point 4·(sequence) + (row / 256). -/
theorem cover5 (i : S64x1024x256.Idx) : ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 256 := (i 2).isLt
  have hN : cfg0.N = 256 := N_0
  have hlt : 4 * (i 0).val + (i 1).val / 256 < cfg0.N := by rw [hN]; omega
  obtain ⟨e0, e1, e2⟩ := idx5 ⟨4 * (i 0).val + (i 1).val / 256, hlt⟩
  have tv : (⟨4 * (i 0).val + (i 1).val / 256, hlt⟩ : Fin cfg0.N).val = 4 * (i 0).val + (i 1).val / 256 := rfl
  refine ⟨⟨4 * (i 0).val + (i 1).val / 256, hlt⟩, flush0_5 _, ?_⟩
  rw [mem_blk5]
  intro a
  match a with
  | ⟨0, _⟩ =>
    show win0_5.index ⟨4 * (i 0).val + (i 1).val / 256, hlt⟩ (0 : Fin 3) * 1 ≤ (i 0).val ∧ (i 0).val < win0_5.index ⟨4 * (i 0).val + (i 1).val / 256, hlt⟩ (0 : Fin 3) * 1 + 1
    omega
  | ⟨1, _⟩ =>
    show win0_5.index ⟨4 * (i 0).val + (i 1).val / 256, hlt⟩ (1 : Fin 3) * 256 ≤ (i 1).val ∧ (i 1).val < win0_5.index ⟨4 * (i 0).val + (i 1).val / 256, hlt⟩ (1 : Fin 3) * 256 + 256
    omega
  | ⟨2, _⟩ =>
    show win0_5.index ⟨4 * (i 0).val + (i 1).val / 256, hlt⟩ (2 : Fin 3) * 256 ≤ (i 2).val ∧ (i 2).val < win0_5.index ⟨4 * (i 0).val + (i 1).val / 256, hlt⟩ (2 : Fin 3) * 256 + 256
    omega

/-- The [64, 1024, 256] result array after the run is G, when every point leaves G's block in its staged block. -/
theorem final5 (G : (⟨3, ![64, 1024, 256]⟩ : Shape).Idx → EReal)
    (h : ∀ (t : Fin cfg0.N) (u : Fin 1) (r j : Fin 256), (outsAt0 m c t.val t.isLt).1 (ix3 u r j) = G (ix3 (b t) (row t r) j)) :
    (dats m 0 c).arrAt 5 cfg0.N = G :=
  (dats m 0 c).arrAt_eq_of_cover 5 G (fun t _ => flushed5_eq m c G h t) cover5

/-! ## Window 6: the [64, 1, 1024, 1024] result -/

/-- Window 6's block index at a point: (sequence, 0, tile, 0). -/
theorem idx6 : ∀ t : Fin cfg0.N, win0_6.index t (0 : Fin 4) = t.val / 4 ∧ win0_6.index t (1 : Fin 4) = 0 ∧ win0_6.index t (2 : Fin 4) = t.val % 4 ∧ win0_6.index t (3 : Fin 4) = 0 :=
  (by decide +kernel : ∀ t : Fin grid0.N, win0_6.index t (0 : Fin 4) = t.val / 4 ∧ win0_6.index t (1 : Fin 4) = 0 ∧ win0_6.index t (2 : Fin 4) = t.val % 4 ∧ win0_6.index t (3 : Fin 4) = 0)

/-- What point t writes back to window 6's array is G read through the point's block. -/
theorem flushed6_eq (G : (⟨4, ![64, 1, 1024, 1024]⟩ : Shape).Idx → EReal)
    (h : ∀ (t : Fin cfg0.N) (u v : Fin 1) (r : Fin 256) (k : Fin 1024), (outsAt0 m c t.val t.isLt).2.1 (ix4 u v r k) = G (ix4 (b t) (0 : Fin 1) (row t r) k))
    (t : Fin cfg0.N) :
    (dats m 0 c).flushed 6 t = ((cfg0.win 6).blk t).view.read (Elt Ideal) G := by
  obtain ⟨i0, i1, i2, i3⟩ := idx6 t
  rw [Value.flushed6]
  refine funext fun (y : S1x1x256x1024.Idx) => ?_
  rw [View.read_apply]
  have e1 : (cfg0.win 6).xinj (grid0.coords t) y = ix4 (n0 := 1) (n1 := 1) (n2 := 256) (n3 := 1024) (y 0) (y 1) (y 2) (y 3) :=
    funext fun a => Fin.ext (by
      match a with
      | ⟨0, _⟩ => rfl
      | ⟨1, _⟩ => rfl
      | ⟨2, _⟩ => rfl
      | ⟨3, _⟩ => rfl)
  have e2 : ((cfg0.win 6).blk t).view.emb y = ix4 (b t) (0 : Fin 1) (row t (y 2)) (y 3) := funext fun a => Fin.ext (by
    have h0 : (y 0).val < 1 := (y 0).isLt
    have h1 : (y 1).val < 1 := (y 1).isLt
    match a with
    | ⟨0, _⟩ => show win0_6.index t (0 : Fin 4) * 1 + 1 * (y 0).val = t.val / 4; omega
    | ⟨1, _⟩ => show win0_6.index t (1 : Fin 4) * 1 + 1 * (y 1).val = 0; omega
    | ⟨2, _⟩ => show win0_6.index t (2 : Fin 4) * 256 + 1 * (y 2).val = 256 * (t.val % 4) + (y 2).val; omega
    | ⟨3, _⟩ => show win0_6.index t (3 : Fin 4) * 1024 + 1 * (y 3).val = (y 3).val; omega)
  exact (congrArg (outsAt0 m c t.val t.isLt).2.1 e1).trans ((h t (y 0) (y 1) (y 2) (y 3)).trans (congrArg G e2.symm))

/-- An index of the array is in point t's block iff each coordinate is in the block's range on its axis. -/
theorem mem_blk6 (t : Fin cfg0.N) (i : S64x1x1024x1024.Idx) :
    i ∈ ((cfg0.win 6).blk t).view.set ↔ ∀ a : Fin 4, win0_6.index t a * S1x1x256x1024.size a ≤ (i a).val ∧ (i a).val < win0_6.index t a * S1x1x256x1024.size a + S1x1x256x1024.size a := by
  show i ∈ ((View.whole main_v4_1).slice (win0_6.rect t)).set ↔ _
  rw [View.set_slice_whole, Rect.mem_set_unit]
  exact Iff.rfl

/-- Every index of the array is in the block of the point 4·(sequence) + (row / 256). -/
theorem cover6 (i : S64x1x1024x1024.Idx) : ∃ t : Fin cfg0.N, (cfg0.win 6).flush t = true ∧ i ∈ ((cfg0.win 6).blk t).view.set := by
  have h0 : (i 0).val < 64 := (i 0).isLt
  have h1 : (i 1).val < 1 := (i 1).isLt
  have h2 : (i 2).val < 1024 := (i 2).isLt
  have h3 : (i 3).val < 1024 := (i 3).isLt
  have hN : cfg0.N = 256 := N_0
  have hlt : 4 * (i 0).val + (i 2).val / 256 < cfg0.N := by rw [hN]; omega
  obtain ⟨e0, e1, e2, e3⟩ := idx6 ⟨4 * (i 0).val + (i 2).val / 256, hlt⟩
  have tv : (⟨4 * (i 0).val + (i 2).val / 256, hlt⟩ : Fin cfg0.N).val = 4 * (i 0).val + (i 2).val / 256 := rfl
  refine ⟨⟨4 * (i 0).val + (i 2).val / 256, hlt⟩, flush0_6 _, ?_⟩
  rw [mem_blk6]
  intro a
  match a with
  | ⟨0, _⟩ =>
    show win0_6.index ⟨4 * (i 0).val + (i 2).val / 256, hlt⟩ (0 : Fin 4) * 1 ≤ (i 0).val ∧ (i 0).val < win0_6.index ⟨4 * (i 0).val + (i 2).val / 256, hlt⟩ (0 : Fin 4) * 1 + 1
    omega
  | ⟨1, _⟩ =>
    show win0_6.index ⟨4 * (i 0).val + (i 2).val / 256, hlt⟩ (1 : Fin 4) * 1 ≤ (i 1).val ∧ (i 1).val < win0_6.index ⟨4 * (i 0).val + (i 2).val / 256, hlt⟩ (1 : Fin 4) * 1 + 1
    omega
  | ⟨2, _⟩ =>
    show win0_6.index ⟨4 * (i 0).val + (i 2).val / 256, hlt⟩ (2 : Fin 4) * 256 ≤ (i 2).val ∧ (i 2).val < win0_6.index ⟨4 * (i 0).val + (i 2).val / 256, hlt⟩ (2 : Fin 4) * 256 + 256
    omega
  | ⟨3, _⟩ =>
    show win0_6.index ⟨4 * (i 0).val + (i 2).val / 256, hlt⟩ (3 : Fin 4) * 1024 ≤ (i 3).val ∧ (i 3).val < win0_6.index ⟨4 * (i 0).val + (i 2).val / 256, hlt⟩ (3 : Fin 4) * 1024 + 1024
    omega

/-- The [64, 1, 1024, 1024] result array after the run is G, when every point leaves G's block in its staged block. -/
theorem final6 (G : (⟨4, ![64, 1, 1024, 1024]⟩ : Shape).Idx → EReal)
    (h : ∀ (t : Fin cfg0.N) (u v : Fin 1) (r : Fin 256) (k : Fin 1024), (outsAt0 m c t.val t.isLt).2.1 (ix4 u v r k) = G (ix4 (b t) (0 : Fin 1) (row t r) k)) :
    (dats m 0 c).arrAt 6 cfg0.N = G :=
  (dats m 0 c).arrAt_eq_of_cover 6 G (fun t _ => flushed6_eq m c G h t) cover6

end Cert.KernelIdeal.Geo

end
-- ==== Proof.KRun.lean ====
/-
  The kernel's run, read as values.  Every point writes its two blocks back; the blocks of the 256 points tile the two
  result arrays (point t covers rows 256·(t % 4) … of sequence t / 4); each block is the specification there.  So after the
  run the first result array is the specification's output and the second its attention weights, and the five argument
  arrays are as they were.
-/
import proofs.«137604_j76132590289000_2_alg».proof.Proof.KSeq
import proofs.«137604_j76132590289000_2_alg».proof.Proof.KGeoOut
import proofs.«137604_j76132590289000_2_alg».proof.Proof.Gen.KernelIdeal.Value

noncomputable section

open Idealize.ShloMosaic Idealize.ShloMosaic.ValueIdx Idealize.ShloMosaic.TcCoe Idealize.SL.Sem

namespace Cert.KernelIdeal.RunValue

open Cert.KernelIdeal Cert.KernelIdeal.Gen Cert.CausalAttn Cert.KernelIdeal.Seq Cert.KernelIdeal.Geo

variable (m : (ℓ : Loc nD τ sig) → Buf (Elt Ideal) ℓ) (ρ : Dev nD → PrngReg)

/-- The first result array after the run. -/
theorem final_out (c : Dev nD) :
    (dats m 0 c).arrAt 5 cfg0.N = resultOut (aX m c) (aW m c) (aB m c) (aWo m c) (aBo m c) :=
  final5 m c _ (out_at m c)

/-- The second result array after the run. -/
theorem final_attn (c : Dev nD) :
    (dats m 0 c).arrAt 6 cfg0.N = resultAttn (aX m c) (aW m c) (aB m c) :=
  final6 m c _ (attn_at m c)

/-- Every weakly fair execution ends with the two result arrays at the specification of the argument arrays, which are unchanged. -/
theorem run : θ_run defs (onTc (τ := τ) (main (F := Ideal))) ⟨m, fun _ => 0, ρ⟩ fun r => ∀ c : Dev nD,
      r.2.mem ((c : Thread nD τ).loc main_v4_0) = resultOut (aX m c) (aW m c) (aB m c) (aWo m c) (aBo m c)
      ∧ r.2.mem ((c : Thread nD τ).loc main_v4_1) = resultAttn (aX m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_attn m c), (h c).2.2⟩)
    (Cert.KernelIdeal.Value.run_blocks m ρ)

end Cert.KernelIdeal.RunValue

end
-- ==== Proof.RefProj.lean ====
/-
  The reference's fused projection and its three column ranges, read entry by entry.

  The projection is a contraction over the 256 input features plus the bias spread over the tokens:
  entry (n, s, f) is  Σ_e x[n,s,e] · W[e,f] + b[f].  The query, key and value arrays are column ranges
  0–255, 256–511 and 512–767 of it, each re-laid from [64, 1024, 256] to [64, 1024, 1, 256] (the same
  row-major order, a unit axis inserted) and then transposed to [64, 1, 1024, 256]; so entry (n, 0, r, d)
  of each is the projection at token (n, r), column d of its range.
-/
import proofs.«137604_j76132590289000_2_alg».proof.Proof.Gen.ReferenceIdeal.Read
import proofs.«137604_j76132590289000_2_alg».proof.Proof.Spec

noncomputable section

namespace Cert.ReferenceIdeal.RefValue

open Cert.ReferenceIdeal Cert.ReferenceIdeal.Read Cert.CausalAttn
open Idealize.ShloMosaic Idealize.ShloMosaic.ValueIdx
open scoped BigOperators

/-- The projection at token (n, s), column f: the contraction plus the bias. -/
theorem v3_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (s : Fin 1024) (f : Fin 768) :
    val_main_v3 (F := Ideal) x0 x1 x2 (ix3 n s f) = proj x0 x1 x2 n s f := by
  rw [val_main_v3_apply, val_main_v0_apply, val_main_v2_apply, val_main_v1_apply]
  have el : ∀ e : Fin 256, lidx_main_v0 (ix3 n s f) e = ix3 n s e := fun e => funext fun a => Fin.ext (by
    match a with
    | ⟨0, _⟩ => rfl
    | ⟨1, _⟩ => rfl
    | ⟨2, _⟩ => rfl)
  have er : ∀ e : Fin 256, ridx_main_v0 (ix3 n s f) e = ix2 e f := fun e => funext fun a => Fin.ext (by
    match a with
    | ⟨0, _⟩ => rfl
    | ⟨1, _⟩ => rfl)
  have eb : idx_main_v1 (idx_main_v2 (ix3 n s f)) = ix1 f := funext fun a => Fin.ext (by
    match a with
    | ⟨0, _⟩ => rfl)
  simp only [el, er, eb, Ideal.addf_def]
  rfl

/-- The query array at (n, 0, r, d): the projection at token (n, r), query column d. -/
theorem v8_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) (d : Fin 256) :
    val_main_v8 (F := Ideal) x0 x1 x2 (ix4 n u r d) = proj x0 x1 x2 n r (colQ d) := by
  rw [val_main_v8_apply, val_main_v7_apply, val_main_v4_apply]
  have e : idx_main_v4 (idx_main_v7 (idx_main_v8 (ix4 n u r d))) = ix3 n r (colQ d) := funext fun a => Fin.ext (by
    have hu : u.val = 0 := by omega
    have hn := n.isLt
    have hr := r.isLt
    have hd := d.isLt
    match a with
    | ⟨0, _⟩ => show (((n.val * 1024 + r.val) * 1 + u.val) * 256 + d.val) / 262144 = n.val; omega
    | ⟨1, _⟩ => show (((n.val * 1024 + r.val) * 1 + u.val) * 256 + d.val) / 256 % 1024 = r.val; omega
    | ⟨2, _⟩ => show (((n.val * 1024 + r.val) * 1 + u.val) * 256 + d.val) % 256 = d.val; omega)
  rw [e]
  exact v3_eq x0 x1 x2 n r (colQ d)

/-- The key array at (n, 0, r, d): the projection at token (n, r), key column d. -/
theorem v10_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) (d : Fin 256) :
    val_main_v10 (F := Ideal) x0 x1 x2 (ix4 n u r d) = proj x0 x1 x2 n r (colK d) := by
  rw [val_main_v10_apply, val_main_v9_apply, val_main_v5_apply]
  have e : idx_main_v5 (idx_main_v9 (idx_main_v10 (ix4 n u r d))) = ix3 n r (colK d) := funext fun a => Fin.ext (by
    have hu : u.val = 0 := by omega
    have hn := n.isLt
    have hr := r.isLt
    have hd := d.isLt
    match a with
    | ⟨0, _⟩ => show (((n.val * 1024 + r.val) * 1 + u.val) * 256 + d.val) / 262144 = n.val; omega
    | ⟨1, _⟩ => show (((n.val * 1024 + r.val) * 1 + u.val) * 256 + d.val) / 256 % 1024 = r.val; omega
    | ⟨2, _⟩ => show 256 + (((n.val * 1024 + r.val) * 1 + u.val) * 256 + d.val) % 256 = d.val + 256; omega)
  rw [e]
  exact v3_eq x0 x1 x2 n r (colK d)

/-- The value array at (n, 0, r, d): the projection at token (n, r), value column d. -/
theorem v12_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) (d : Fin 256) :
    val_main_v12 (F := Ideal) x0 x1 x2 (ix4 n u r d) = proj x0 x1 x2 n r (colV d) := by
  rw [val_main_v12_apply, val_main_v11_apply, val_main_v6_apply]
  have e : idx_main_v6 (idx_main_v11 (idx_main_v12 (ix4 n u r d))) = ix3 n r (colV d) := funext fun a => Fin.ext (by
    have hu : u.val = 0 := by omega
    have hn := n.isLt
    have hr := r.isLt
    have hd := d.isLt
    match a with
    | ⟨0, _⟩ => show (((n.val * 1024 + r.val) * 1 + u.val) * 256 + d.val) / 262144 = n.val; omega
    | ⟨1, _⟩ => show (((n.val * 1024 + r.val) * 1 + u.val) * 256 + d.val) / 256 % 1024 = r.val; omega
    | ⟨2, _⟩ => show 512 + (((n.val * 1024 + r.val) * 1 + u.val) * 256 + d.val) % 256 = d.val + 512; omega)
  rw [e]
  exact v3_eq x0 x1 x2 n r (colV d)

end Cert.ReferenceIdeal.RefValue

end
-- ==== Proof.RefScore.lean ====
/-
  The reference's score, its lower-triangular mask, and the masked score, read entry by entry.

  The score at (n, 0, r, k) is the contraction of query row r with key row k over the 256 columns, divided by
  the square root of 256: the divided arrangement. The mask is built from two counters over a [1024, 1024] grid,
  the row number (plus zero) and the column number, compared as signed 32-bit words: row ≥ column. Both numbers
  are below 1024, far below 2^31, so each word's signed value is the number itself and the comparison is the
  comparison of the natural numbers. Where the mask holds the masked score is the score; elsewhere it is the
  constant −10000.
-/
import proofs.«137604_j76132590289000_2_alg».proof.Proof.RefProj
import Idealize.ShloMosaic.Lib.Affine

noncomputable section

namespace Cert.ReferenceIdeal.RefValue

open Cert.ReferenceIdeal Cert.ReferenceIdeal.Read Cert.CausalAttn
open Idealize.ShloMosaic Idealize.ShloMosaic.ValueIdx
open scoped BigOperators

/-- The score at (n, 0, r, k): query row r against key row k, the product divided by √256. -/
theorem v16_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r k : Fin 1024) :
    val_main_v16 (F := Ideal) x0 x1 x2 (ix4 n u r k) = scoreDivided (proj x0 x1 x2) n r k := by
  rw [val_main_v16_apply, val_main_v13_apply, val_main_v15_apply, val_main_v14_apply, val_main_cst_apply]
  have el : ∀ d : Fin 256, lidx_main_v13 (ix4 n u r k) d = ix4 n u r d := fun d => funext fun a => Fin.ext (by
    match a with
    | ⟨0, _⟩ => rfl
    | ⟨1, _⟩ => rfl
    | ⟨2, _⟩ => rfl
    | ⟨3, _⟩ => rfl)
  have er : ∀ d : Fin 256, ridx_main_v13 (ix4 n u r k) d = ix4 n u k d := fun d => funext fun a => Fin.ext (by
    match a with
    | ⟨0, _⟩ => rfl
    | ⟨1, _⟩ => rfl
    | ⟨2, _⟩ => rfl
    | ⟨3, _⟩ => rfl)
  simp only [el, er, v8_eq, v10_eq, Ideal.hostDivf_def, Ideal.hostUnary_sqrt_def, Ideal.ofBits_def]
  rfl

/-- A natural number below 1024, as a 32-bit word, has itself as its signed value. -/
theorem toInt_ofNat_small (m : ℕ) (h : m < 1024) : (BitVec.ofNat 32 m).toInt = (m : ℤ) := by
  have hm : (BitVec.ofNat 32 m).toNat = m := by
    rw [BitVec.toNat_ofNat]
    exact Nat.mod_eq_of_lt (by omega)
  rw [BitVec.toInt_eq_toNat_of_lt (by rw [hm]; omega), hm]

/-- The mask at (0, 0, r, k) holds exactly when the column does not exceed the row. -/
theorem v18_eq (u v : Fin 1) (r k : Fin 1024) :
    val_main_v18 (F := Ideal) (ix4 u v r k) = if k.val ≤ r.val then 1#1 else 0#1 := by
  rw [val_main_v18_apply, val_main_call0_v5_apply, val_main_v17_apply, val_main_c_apply, val_main_call0_v6_apply,
    val_main_call0_c_0_apply, val_main_call0_v4_apply, val_main_call0_v2_apply, val_main_call0_v0_apply,
    val_main_call0_v1_apply, val_main_call0_c_apply, val_main_call0_v3_apply]
  show Scalar.select (IntOp.cmpi .sge (IntOp.addi (BitVec.ofNat 32 r.val) 0#32) (BitVec.ofNat 32 k.val)) 1#1 0#1 = _
  have hz : IntOp.addi (BitVec.ofNat 32 r.val) 0#32 = BitVec.ofNat 32 r.val := BitVec.add_zero _
  rw [hz]
  by_cases h : k.val ≤ r.val
  · have hc : IntOp.cmpi .sge (BitVec.ofNat 32 r.val) (BitVec.ofNat 32 k.val) = 1#1 :=
      IntOp.cmpi_sge.mpr (by rw [toInt_ofNat_small _ r.isLt, toInt_ofNat_small _ k.isLt]; exact_mod_cast h)
    rw [hc, select_one, if_pos h]
  · have hc : IntOp.cmpi .sge (BitVec.ofNat 32 r.val) (BitVec.ofNat 32 k.val) = 0#1 :=
      eq_zero_of_ne_one fun h1 => h (by
        have h2 := IntOp.cmpi_sge.mp h1
        rw [toInt_ofNat_small _ r.isLt, toInt_ofNat_small _ k.isLt] at h2
        exact_mod_cast h2)
    rw [hc, select_zero, if_neg h]

/-- The masked score at (n, 0, r, k): the score up to the diagonal, −10000 beyond it. -/
theorem v19_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r k : Fin 1024) :
    val_main_v19 (F := Ideal) x0 x1 x2 (ix4 n u r k) = masked (scoreDivided (proj x0 x1 x2)) n r k := by
  rw [val_main_v19_apply, val_main_call1_v0_apply, val_main_call1_v1_apply, val_main_cst_0_apply, v16_eq]
  have e : idx_main_call1_v0 (ix4 n u r k) = ix4 (0 : Fin 1) (0 : Fin 1) r k := funext fun a => Fin.ext (by
    match a with
    | ⟨0, _⟩ => rfl
    | ⟨1, _⟩ => rfl
    | ⟨2, _⟩ => rfl
    | ⟨3, _⟩ => rfl)
  rw [e, v18_eq]
  unfold masked
  by_cases h : k.val ≤ r.val
  · rw [if_pos h, if_pos h, select_one]
  · rw [if_neg h, if_neg h, select_zero]
    rfl

end Cert.ReferenceIdeal.RefValue

end
-- ==== Proof.LibHostRowMax.lean ====
/-
  The host's maximum-reduction over axis 1 of a matrix [a, b] of extended reals, read at a row.

  A reduction by a commutative, associative operation at result index r is the fold of that operation, from the initial
  value, over the coordinates of the reduced axis; inserting coordinate k on axis 1 over row r gives the matrix index
  (r, k). So the row's maximum is the fold of max over the row's b entries. A second fact used beside it: taking the
  maximum of such a fold with the value it was folded from changes nothing, since the fold is at least that value.
-/
import Idealize.ShloMosaic.PureOps.Reduce
import Idealize.ShloMosaic.PureOps.Ideal.Laws
import proofs.«137604_j76132590289000_2_alg».proof.Proof.LibSoftmaxRow

noncomputable section

namespace Cert.LibHostRowMax

open Idealize.ShloMosaic Idealize.ShloMosaic.ValueIdx

/-- The host's max-reduce over axis 1 at row `r`: the fold of max from the initial value over the row's entries. -/
theorem hostRowMax_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single _ x init h' h hu (ix1 r)]
  exact congrArg (fun f => (Finset.univ : Finset (Fin b)).fold max (init (Shape.Idx.first hu)) f)
    (funext fun k => congrArg x (Cert.LibSoftmaxRow.lift_row h r k))

/-- The maximum of a fold of max with the value it starts from is the fold. -/
theorem max_fold_start {ι : Type} (s : Finset ι) (b : EReal) (f : ι → EReal) :
    max b (s.fold max b f) = s.fold max b f :=
  max_eq_right ((Finset.le_fold_max b).mpr (Or.inl le_rfl))

end Cert.LibHostRowMax

end
-- ==== Proof.RefSoftmax.lean ====
/-
  The reference's row softmax of the masked score, read entry by entry, and the first of the two results.

  The row maximum is a reduction by max over the last axis of a [64, 1, 1024, 1024] array, started from −∞:
  max commutes and associates, so at row (n, 0, r) it is the fold of max from −∞ over the row's 1024 entries,
  whatever order they are visited in; inserting coordinate k on the last axis over (n, 0, r) gives (n, 0, r, k).
  That maximum is then taken in a maximum with −∞ once more, which changes nothing: the fold is at least the
  value it starts from. It is spread back along the row, subtracted, and the exponential taken. The row sum of
  the exponentials is the initial value 0 plus the sum over the row; spread back likewise, it divides the
  exponentials. So entry (n, 0, r, k) is  exp(s[r,k] − M) / Σ_k' exp(s[r,k'] − M).

  The score under the mask was read in the divided arrangement, (Σ_d q·k) / √256; the attention weights are
  defined with the query scaled first, Σ_d (q · 1/16) · k, and the two arrangements are one function.
-/
import proofs.«137604_j76132590289000_2_alg».proof.Proof.RefScore
import proofs.«137604_j76132590289000_2_alg».proof.Proof.LibHostRowMax
import Idealize.ShloMosaic.PureOps.Reduce

noncomputable section

namespace Cert.ReferenceIdeal.RefValue

open Cert.ReferenceIdeal Cert.ReferenceIdeal.Read Cert.CausalAttn
open Idealize.ShloMosaic Idealize.ShloMosaic.ValueIdx
open scoped BigOperators

set_option backward.isDefEq.respectTransparency.types false in
/-- Over (n, 0, r) of the reduced array, inserting coordinate k on the reduced last axis gives (n, 0, r, k). -/
theorem lift_row4 (h : S64x1x1024x1024.Reduces [3] S64x1x1024) (n : Fin 64) (u : Fin 1) (r k : Fin 1024) :
    h.lift (ix3 n u r) k = ix4 n u r k := by
  funext c
  apply Fin.ext
  rw [h.lift_val]
  match c with
  | ⟨0, _⟩ => rfl
  | ⟨1, _⟩ => rfl
  | ⟨2, _⟩ => rfl
  | ⟨3, _⟩ => rfl

/-- The max-reduction at (n, 0, r): the maximum of row r of the masked score, folded from −∞. -/
theorem v20_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) :
    val_main_v20 (F := Ideal) x0 x1 x2 (ix3 n u r) = rowMax (masked (scoreDivided (proj x0 x1 x2))) n r := by
  have h : S64x1x1024x1024.Reduces [3] S64x1x1024 := by decide
  unfold val_main_v20
  rw [Host.reduce_eq_fold_single _ _ _ _ h _ (ix3 n u r)]
  unfold rowMax
  exact congrArg (fun f => (Finset.univ : Finset (Fin 1024)).fold max (Ideal.ofBits .f32 0xFF800000#32) f)
    (funext fun k => (congrArg (val_main_v19 (F := Ideal) x0 x1 x2) (lift_row4 h n u r k)).trans (v19_eq x0 x1 x2 n u r k))

/-- The maximum of −∞ with the row maximum is the row maximum. -/
theorem v22_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) :
    val_main_v22 (F := Ideal) x0 x1 x2 (ix3 n u r) = rowMax (masked (scoreDivided (proj x0 x1 x2))) n r := by
  rw [val_main_v22_apply, val_main_v21_apply, val_main_cst_2_apply, v20_eq]
  unfold rowMax
  exact Cert.LibHostRowMax.max_fold_start _ _ _

/-- The exponential of the masked score less its row maximum, at (n, 0, r, k). -/
theorem v26_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r k : Fin 1024) :
    val_main_v26 (F := Ideal) x0 x1 x2 (ix4 n u r k)
      = Ideal.exp (masked (scoreDivided (proj x0 x1 x2)) n r k - rowMax (masked (scoreDivided (proj x0 x1 x2))) n r) := by
  rw [val_main_v26_apply, val_main_v25_apply, val_main_v24_apply, val_main_v23_apply, v19_eq]
  have e : idx_main_v23 (idx_main_v24 (ix4 n u r k)) = ix3 n (0 : Fin 1) r := funext fun a => Fin.ext (by
    match a with
    | ⟨0, _⟩ => rfl
    | ⟨1, _⟩ => rfl
    | ⟨2, _⟩ => rfl)
  rw [e, v22_eq]
  rfl

/-- The add-reduction at (n, 0, r): the sum of the row's exponentials (the initial value is 0). -/
theorem v27_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) :
    val_main_v27 (F := Ideal) x0 x1 x2 (ix3 n u r)
      = ∑ k : Fin 1024, Ideal.exp (masked (scoreDivided (proj x0 x1 x2)) n r k - rowMax (masked (scoreDivided (proj x0 x1 x2))) n r) := by
  rw [val_main_v27_apply, val_main_cst_3_apply]
  have e : ∀ k : Fin 1024, idx_main_v27 (ix3 n u r) k = ix4 n u r k := fun k => funext fun a => Fin.ext (by
    match a with
    | ⟨0, _⟩ => rfl
    | ⟨1, _⟩ => rfl
    | ⟨2, _⟩ => rfl
    | ⟨3, _⟩ => rfl)
  simp only [e, v26_eq, Ideal.ofBits_def]
  rw [ofBits_zero, zero_add]

/-- The quotient at (n, 0, r, k): the row softmax of the masked score. -/
theorem v30_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r k : Fin 1024) :
    val_main_v30 (F := Ideal) x0 x1 x2 (ix4 n u r k) = softmax (masked (scoreDivided (proj x0 x1 x2))) n r k := by
  rw [val_main_v30_apply, val_main_v29_apply, val_main_v28_apply, v26_eq]
  have e : idx_main_v28 (idx_main_v29 (ix4 n u r k)) = ix3 n (0 : Fin 1) r := funext fun a => Fin.ext (by
    match a with
    | ⟨0, _⟩ => rfl
    | ⟨1, _⟩ => rfl
    | ⟨2, _⟩ => rfl)
  rw [e, v27_eq]
  rfl

/-- The attention weights at (n, 0, r, k), with the score in the arrangement that scales the query first. -/
theorem v30_attn (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r k : Fin 1024) :
    val_main_v30 (F := Ideal) x0 x1 x2 (ix4 n u r k) = attn x0 x1 x2 n r k := by
  rw [v30_eq, scoreDivided_eq_scoreScaled]
  rfl

/-- The reference's second result is the attention weights, as one function of the first three arguments. -/
theorem ref_attn (x0 : (⟨S64x1024x256, .f32⟩ : BufTy).Contents (Elt Ideal)) (x1 : (⟨S256x768, .f32⟩ : BufTy).Contents (Elt Ideal))
    (x2 : (⟨S768, .f32⟩ : BufTy).Contents (Elt Ideal)) :
    Cert.ReferenceIdeal.Read.val_main_v30 (F := Ideal) x0 x1 x2 = Cert.CausalAttn.resultAttn x0 x1 x2 := by
  funext i
  have hi : i = ix4 (n0 := 64) (n1 := 1) (n2 := 1024) (n3 := 1024) (i 0) (i 1) (i 2) (i 3) := eq_ix4 i
  exact (congrArg (val_main_v30 (F := Ideal) x0 x1 x2) hi).trans (v30_attn x0 x1 x2 (i 0) (i 1) (i 2) (i 3))

end Cert.ReferenceIdeal.RefValue

end
-- ==== Proof.RefOut.lean ====
/-
  The reference's weighted values and output projection, read entry by entry, and the first of the two results.

  The weighted values at (n, 0, r, e) are the contraction of attention row r with value column e over the 1024
  key positions. They are transposed from [64, 1, 1024, 256] to [64, 1024, 1, 256] and re-laid as [64, 1024, 256]
  (the same row-major order, the unit axis dropped), so entry (n, r, e) of the re-laid array is entry (n, 0, r, e)
  of the product. The output is the contraction of that with the output weights over the 256 columns, plus the
  output bias spread over the tokens.
-/
import proofs.«137604_j76132590289000_2_alg».proof.Proof.RefSoftmax

noncomputable section

namespace Cert.ReferenceIdeal.RefValue

open Cert.ReferenceIdeal Cert.ReferenceIdeal.Read Cert.CausalAttn
open Idealize.ShloMosaic Idealize.ShloMosaic.ValueIdx
open scoped BigOperators

/-- The weighted values at (n, 0, r, e): attention row r against value column e. -/
theorem v31_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (u : Fin 1) (r : Fin 1024) (e : Fin 256) :
    val_main_v31 (F := Ideal) x0 x1 x2 (ix4 n u r e) = ctx (attn x0 x1 x2) (proj x0 x1 x2) n r e := by
  rw [val_main_v31_apply]
  have el : ∀ k : Fin 1024, lidx_main_v31 (ix4 n u r e) k = ix4 n u r k := fun k => funext fun a => Fin.ext (by
    match a with
    | ⟨0, _⟩ => rfl
    | ⟨1, _⟩ => rfl
    | ⟨2, _⟩ => rfl
    | ⟨3, _⟩ => rfl)
  have er : ∀ k : Fin 1024, ridx_main_v31 (ix4 n u r e) k = ix4 n u k e := fun k => funext fun a => Fin.ext (by
    match a with
    | ⟨0, _⟩ => rfl
    | ⟨1, _⟩ => rfl
    | ⟨2, _⟩ => rfl
    | ⟨3, _⟩ => rfl)
  simp only [el, er, v30_attn, v12_eq]
  rfl

/-- The weighted values transposed and re-laid, at (n, r, e): the product at (n, 0, r, e). -/
theorem v33_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (n : Fin 64) (r : Fin 1024) (e : Fin 256) :
    val_main_v33 (F := Ideal) x0 x1 x2 (ix3 n r e) = ctx (attn x0 x1 x2) (proj x0 x1 x2) n r e := by
  rw [val_main_v33_apply, val_main_v32_apply]
  have e' : idx_main_v32 (idx_main_v33 (ix3 n r e)) = ix4 n (0 : Fin 1) r e := funext fun a => Fin.ext (by
    have hn := n.isLt
    have hr := r.isLt
    have he := e.isLt
    match a with
    | ⟨0, _⟩ => show ((n.val * 1024 + r.val) * 256 + e.val) / 262144 = n.val; omega
    | ⟨1, _⟩ => rfl
    | ⟨2, _⟩ => show ((n.val * 1024 + r.val) * 256 + e.val) / 256 % 1024 = r.val; omega
    | ⟨3, _⟩ => show ((n.val * 1024 + r.val) * 256 + e.val) % 256 = e.val; omega)
  rw [e', v31_eq]

/-- The output at (n, r, j): the weighted values against output column j, plus the output bias. -/
theorem v37_eq (x0 : (⟨S64x1024x256, .f32⟩ : BufTy).Contents (Elt Ideal)) (x1 : (⟨S256x768, .f32⟩ : BufTy).Contents (Elt Ideal))
    (x2 : (⟨S768, .f32⟩ : BufTy).Contents (Elt Ideal)) (x3 : (⟨S256x256, .f32⟩ : BufTy).Contents (Elt Ideal))
    (x4 : (⟨S256, .f32⟩ : BufTy).Contents (Elt Ideal)) (n : Fin 64) (r : Fin 1024) (j : Fin 256) :
    val_main_v37 (F := Ideal) x0 x1 x2 x3 x4 (ix3 n r j)
      = outProj (ctx (attn x0 x1 x2) (proj x0 x1 x2)) x3 x4 n r j := by
  rw [val_main_v37_apply, val_main_v34_apply, val_main_v36_apply, val_main_v35_apply]
  have el : ∀ e : Fin 256, lidx_main_v34 (ix3 n r j) e = ix3 n r e := fun e => funext fun a => Fin.ext (by
    match a with
    | ⟨0, _⟩ => rfl
    | ⟨1, _⟩ => rfl
    | ⟨2, _⟩ => rfl)
  have er : ∀ e : Fin 256, ridx_main_v34 (ix3 n r j) e = ix2 e j := fun e => funext fun a => Fin.ext (by
    match a with
    | ⟨0, _⟩ => rfl
    | ⟨1, _⟩ => rfl)
  have eb : idx_main_v35 (idx_main_v36 (ix3 n r j)) = ix1 j := funext fun a => Fin.ext (by
    match a with
    | ⟨0, _⟩ => rfl)
  simp only [el, er, eb, v33_eq, Ideal.addf_def]
  rfl

/-- The reference's first result is the output projection of the weighted values, as one function of the five arguments. -/
theorem ref_out (x0 : (⟨S64x1024x256, .f32⟩ : BufTy).Contents (Elt Ideal)) (x1 : (⟨S256x768, .f32⟩ : BufTy).Contents (Elt Ideal))
    (x2 : (⟨S768, .f32⟩ : BufTy).Contents (Elt Ideal)) (x3 : (⟨S256x256, .f32⟩ : BufTy).Contents (Elt Ideal))
    (x4 : (⟨S256, .f32⟩ : BufTy).Contents (Elt Ideal)) :
    Cert.ReferenceIdeal.Read.val_main_v37 (F := Ideal) x0 x1 x2 x3 x4 = Cert.CausalAttn.resultOut x0 x1 x2 x3 x4 := by
  funext i
  have hi : i = ix3 (n0 := 64) (n1 := 1024) (n2 := 256) (i 0) (i 1) (i 2) := eq_ix3 i
  exact (congrArg (val_main_v37 (F := Ideal) x0 x1 x2 x3 x4) hi).trans (v37_eq x0 x1 x2 x3 x4 (i 0) (i 1) (i 2))

end Cert.ReferenceIdeal.RefValue

end
-- ==== Proof.Claims.lean ====
/-
  The five claims.  The two kernel frames are the generated frame runs; the reference's frame is its generated run with the
  results dropped; the idealization rewrote nothing.  For the value claim both runs are read as the same function of the
  argument arrays: the kernel's, tile by tile over a buffer carried through each sequence's four tiles, and the reference's,
  one host operation at a time — single-head causal attention, the only algebra between them being that scaling the query
  by 1/16 before the score is dividing the score by √256 after.
-/
import proofs.«137604_j76132590289000_2_alg».proof.Defs
import proofs.«137604_j76132590289000_2_alg».proof.Proof.Gen.Kernel
import proofs.«137604_j76132590289000_2_alg».proof.Proof.Gen.Kernel.Frame
import proofs.«137604_j76132590289000_2_alg».proof.Proof.Gen.KernelIdeal
import proofs.«137604_j76132590289000_2_alg».proof.Proof.Gen.KernelIdeal.Frame
import proofs.«137604_j76132590289000_2_alg».proof.Proof.Gen.ReferenceIdeal
import proofs.«137604_j76132590289000_2_alg».proof.Proof.Gen.ReferenceIdeal.Run
import proofs.«137604_j76132590289000_2_alg».proof.Proof.Gen.ReferenceIdeal.Read
import proofs.«137604_j76132590289000_2_alg».proof.Proof.Gen.Pre_finite_inputs
import proofs.«137604_j76132590289000_2_alg».proof.Proof.KRun
import proofs.«137604_j76132590289000_2_alg».proof.Proof.RefOut

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end at the specification of argument arrays that agree. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v37_eq, Cert.ReferenceIdeal.RefValue.ref_out,
      (hagree c).1, (hagree c).2.1, (hagree c).2.2.1, (hagree c).2.2.2.1, (hagree c).2.2.2.2]
  · rw [(h c).2.1, Cert.ReferenceIdeal.Read.val_main_v30_eq, Cert.ReferenceIdeal.RefValue.ref_attn,
      (hagree c).1, (hagree c).2.1, (hagree c).2.2.1]

end Cert.Proof.Claims

end
-- ==== Proof.lean ====
/-
  Single-head causal self-attention with fused projections — 64 sequences of 1024 tokens of width 256 — computed by one
  tiled kernel (four query tiles per sequence over a projection kept across the tiles) and by a plain host program: both
  end, without a fault and with their arguments unchanged, at the same two arrays, the output and the attention weights,
  as exact extended reals.  The specification is Proof/Spec.lean; the kernel's side Proof/K*.lean; the reference's side
  Proof/Ref*.lean; the five claims Proof/Claims.lean.
-/
import proofs.«137604_j76132590289000_2_alg».proof.Defs
import proofs.«137604_j76132590289000_2_alg».proof.Proof.Gen.Kernel
import proofs.«137604_j76132590289000_2_alg».proof.Proof.Gen.Kernel.Skeleton
import proofs.«137604_j76132590289000_2_alg».proof.Proof.Gen.Kernel.Launch
import proofs.«137604_j76132590289000_2_alg».proof.Proof.Gen.Kernel.Points
import proofs.«137604_j76132590289000_2_alg».proof.Proof.Gen.Kernel.Frame
import proofs.«137604_j76132590289000_2_alg».proof.Proof.Gen.KernelIdeal
import proofs.«137604_j76132590289000_2_alg».proof.Proof.Gen.KernelIdeal.Skeleton
import proofs.«137604_j76132590289000_2_alg».proof.Proof.Gen.KernelIdeal.Launch
import proofs.«137604_j76132590289000_2_alg».proof.Proof.Gen.KernelIdeal.Points
import proofs.«137604_j76132590289000_2_alg».proof.Proof.Gen.KernelIdeal.Frame
import proofs.«137604_j76132590289000_2_alg».proof.Proof.Gen.ReferenceIdeal
import proofs.«137604_j76132590289000_2_alg».proof.Proof.Gen.Pre_finite_inputs
import proofs.«137604_j76132590289000_2_alg».proof.Proof.Gen.KernelIdeal.Value
import proofs.«137604_j76132590289000_2_alg».proof.Proof.Gen.ReferenceIdeal.Run
import proofs.«137604_j76132590289000_2_alg».proof.Proof.Gen.ReferenceIdeal.Read
import proofs.«137604_j76132590289000_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
